-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024 : Shape := ⟨1, ![1024]⟩
abbrev S100000x512 : Shape := ⟨2, ![100000, 512]⟩
abbrev S1000x512 : Shape := ⟨2, ![1000, 512]⟩
abbrev S1x100000 : Shape := ⟨2, ![1, 100000]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S1000x512 : S_.BroadcastsInDim S1000x512 (![] : Fin 0 → Fin S1000x512.rank)
  reducesTo_S1000x512_S_d0_1 : S1000x512.ReducesTo [0, 1] S_
  bcast_S_S1x100000 : S_.BroadcastsInDim S1x100000 (![] : Fin 0 → Fin S1x100000.rank)
  reducesTo_S1x100000_S_d0_1 : S1x100000.ReducesTo [0, 1] S_

variable [Facts]

def fn_part1 {F : FTy → Type} [FloatOps F] (main_arg6 : FVec F S1x100000 .f32) (main_v13 : IVec S_ 1) (main_v16 : IVec S1000x512 1) : IVec S_ 1 :=
  let main_c_5 : IVec S_ 1 := constantI S_ 1 1#1
  let main_v17 : IVec S_ 1 := (fun x v => Host.reduce IntOp.andi x v reducesTo_S1000x512_S_d0_1 h_S_) main_v16 main_c_5
  let main_v18 : IVec S_ 1 := andi main_v13 main_v17
  let main_v19 : FVec F S1x100000 .f32 := Host.absf main_arg6
  let main_cst_6 : FVec F S_ .f32 := constant S_ .f32 0x7F800000#32
  let main_v20 : FVec F S1x100000 .f32 := broadcastInDim S1x100000 ![] bcast_S_S1x100000 main_cst_6
  let main_v21 : IVec S1x100000 1 := cmpf .olt main_v19 main_v20
  let main_c_7 : IVec S_ 1 := constantI S_ 1 1#1
  let main_v22 : IVec S_ 1 := (fun x v => Host.reduce IntOp.andi x v reducesTo_S1x100000_S_d0_1 h_S_) main_v21 main_c_7
  let main_v23 : IVec S_ 1 := andi main_v18 main_v22
  main_v23

def fn {F : FTy → Type} [FloatOps F] (main_arg0 : IVec S1024 32) (main_arg1 : IVec S1024 32) (main_arg2 : FVec F S100000x512 .f32) (main_arg3 : FVec F S100000x512 .f32) (main_arg4 : FVec F S1000x512 .f32) (main_arg5 : FVec F S1000x512 .f32) (main_arg6 : FVec F S1x100000 .f32) : IVec S_ 1 :=
  let main_v0 : FVec F S100000x512 .f32 := Host.absf main_arg2
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S100000x512 .f32 := Host.absf main_arg3
  let main_cst_0 : FVec F S_ .f32 := constant S_ .f32 0x7F800000#32
  let main_v5 : FVec F S100000x512 .f32 := broadcastInDim S100000x512 ![] bcast_S_S100000x512 main_cst_0
  let main_v6 : IVec S100000x512 1 := cmpf .olt main_v4 main_v5
  let main_c_1 : IVec S_ 1 := constantI S_ 1 1#1
  let main_v7 : IVec S_ 1 := (fun x v => Host.reduce IntOp.andi x v reducesTo_S100000x512_S_d0_1 h_S_) main_v6 main_c_1
  let main_v8 : IVec S_ 1 := andi main_v3 main_v7
  let main_v9 : FVec F S1000x512 .f32 := Host.absf main_arg4
  let main_cst_2 : FVec F S_ .f32 := constant S_ .f32 0x7F800000#32
  let main_v10 : FVec F S1000x512 .f32 := broadcastInDim S1000x512 ![] bcast_S_S1000x512 main_cst_2
  let main_v11 : IVec S1000x512 1 := cmpf .olt main_v9 main_v10
  let main_c_3 : IVec S_ 1 := constantI S_ 1 1#1
  let main_v12 : IVec S_ 1 := (fun x v => Host.reduce IntOp.andi x v reducesTo_S1000x512_S_d0_1 h_S_) main_v11 main_c_3
  let main_v13 : IVec S_ 1 := andi main_v8 main_v12
  let main_v14 : FVec F S1000x512 .f32 := Host.absf main_arg5
  let main_cst_4 : FVec F S_ .f32 := constant S_ .f32 0x7F800000#32
  let main_v15 : FVec F S1000x512 .f32 := broadcastInDim S1000x512 ![] bcast_S_S1000x512 main_cst_4
  let main_v16 : IVec S1000x512 1 := cmpf .olt main_v14 main_v15
  fn_part1 (F := F) main_arg6 main_v13 main_v16
-- ==== Kernel.lean ====
abbrev S1024 : Shape := ⟨1, ![1024]⟩
abbrev S100000x512 : Shape := ⟨2, ![100000, 512]⟩
abbrev S1000x512 : Shape := ⟨2, ![1000, 512]⟩
abbrev S1x100000 : Shape := ⟨2, ![1, 100000]⟩
abbrev S_ : Shape := ⟨0, ![]⟩
abbrev S1024x1 : Shape := ⟨2, ![1024, 1]⟩
abbrev S1024x512 : Shape := ⟨2, ![1024, 512]⟩
abbrev S1024x100000 : Shape := ⟨2, ![1024, 100000]⟩
abbrev S1x1024 : Shape := ⟨2, ![1, 1024]⟩
abbrev S1024x1024 : Shape := ⟨2, ![1024, 1024]⟩

abbrev nBuf : Space → Nat
  | .hbm => 69
  | .vmem => 10
  | .smem => 0
  | _ => 0

abbrev bufTy : (tb : Table) → Fin (tcTables nBuf tb) → BufTy
  | .hbm, ⟨0, _⟩ => ⟨S1024, .i32⟩
  | .hbm, ⟨1, _⟩ => ⟨S1024, .i32⟩
  | .hbm, ⟨2, _⟩ => ⟨S100000x512, .f32⟩
  | .hbm, ⟨3, _⟩ => ⟨S100000x512, .f32⟩
  | .hbm, ⟨4, _⟩ => ⟨S1000x512, .f32⟩
  | .hbm, ⟨5, _⟩ => ⟨S1000x512, .f32⟩
  | .hbm, ⟨6, _⟩ => ⟨S1x100000, .f32⟩
  | .hbm, ⟨7, _⟩ => ⟨S_, .i32⟩
  | .hbm, ⟨8, _⟩ => ⟨S1024, .i32⟩
  | .hbm, ⟨9, _⟩ => ⟨S1024, .i1⟩
  | .hbm, ⟨10, _⟩ => ⟨S_, .i32⟩
  | .hbm, ⟨11, _⟩ => ⟨S1024, .i32⟩
  | .hbm, ⟨12, _⟩ => ⟨S1024, .i32⟩
  | .hbm, ⟨13, _⟩ => ⟨S1024, .i32⟩
  | .hbm, ⟨14, _⟩ => ⟨S_, .i32⟩
  | .hbm, ⟨15, _⟩ => ⟨S1024, .i32⟩
  | .hbm, ⟨16, _⟩ => ⟨S1024, .i1⟩
  | .hbm, ⟨17, _⟩ => ⟨S_, .i32⟩
  | .hbm, ⟨18, _⟩ => ⟨S1024, .i32⟩
  | .hbm, ⟨19, _⟩ => ⟨S1024, .i32⟩
  | .hbm, ⟨20, _⟩ => ⟨S1024, .i32⟩
  | .hbm, ⟨21, _⟩ => ⟨S1024x1, .i32⟩
  | .hbm, ⟨22, _⟩ => ⟨S1024x512, .f32⟩
  | .hbm, ⟨23, _⟩ => ⟨S_, .i32⟩
  | .hbm, ⟨24, _⟩ => ⟨S1024, .i32⟩
  | .hbm, ⟨25, _⟩ => ⟨S1024, .i1⟩
  | .hbm, ⟨26, _⟩ => ⟨S_, .i32⟩
  | .hbm, ⟨27, _⟩ => ⟨S1024, .i32⟩
  | .hbm, ⟨28, _⟩ => ⟨S1024, .i32⟩
  | .hbm, ⟨29, _⟩ => ⟨S1024, .i32⟩
  | .hbm, ⟨30, _⟩ => ⟨S1024x1, .i32⟩
  | .hbm, ⟨31, _⟩ => ⟨S1024x512, .f32⟩
  | .hbm, ⟨32, _⟩ => ⟨S_, .i32⟩
  | .hbm, ⟨33, _⟩ => ⟨S1024, .i32⟩
  | .hbm, ⟨34, _⟩ => ⟨S1024, .i1⟩
  | .hbm, ⟨35, _⟩ => ⟨S_, .i32⟩
  | .hbm, ⟨36, _⟩ => ⟨S1024, .i32⟩
  | .hbm, ⟨37, _⟩ => ⟨S1024, .i32⟩
  | .hbm, ⟨38, _⟩ => ⟨S1024, .i32⟩
  | .hbm, ⟨39, _⟩ => ⟨S1024x1, .i32⟩
  | .hbm, ⟨40, _⟩ => ⟨S1024x512, .f32⟩
  | .hbm, ⟨41, _⟩ => ⟨S_, .i32⟩
  | .hbm, ⟨42, _⟩ => ⟨S1024, .i32⟩
  | .hbm, ⟨43, _⟩ => ⟨S1024, .i1⟩
  | .hbm, ⟨44, _⟩ => ⟨S_, .i32⟩
  | .hbm, ⟨45, _⟩ => ⟨S1024, .i32⟩
  | .hbm, ⟨46, _⟩ => ⟨S1024, .i32⟩
  | .hbm, ⟨47, _⟩ => ⟨S1024, .i32⟩
  | .hbm, ⟨48, _⟩ => ⟨S1024x1, .i32⟩
  | .hbm, ⟨49, _⟩ => ⟨S1024x512, .f32⟩
  | .hbm, ⟨50, _⟩ => ⟨S1024x1, .i1⟩
  | .hbm, ⟨51, _⟩ => ⟨S1024x512, .f32⟩
  | .hbm, ⟨52, _⟩ => ⟨S1024x512, .f32⟩
  | .hbm, ⟨53, _⟩ => ⟨S1024x512, .f32⟩
  | .hbm, ⟨54, _⟩ => ⟨S1024x512, .f32⟩
  | .hbm, ⟨55, _⟩ => ⟨S1024x512, .i1⟩
  | .hbm, ⟨56, _⟩ => ⟨S1024x512, .f32⟩
  | .hbm, ⟨57, _⟩ => ⟨S1024x512, .f32⟩
  | .hbm, ⟨58, _⟩ => ⟨S1024x512, .f32⟩
  | .hbm, ⟨59, _⟩ => ⟨S1024x512, .f32⟩
  | .hbm, ⟨60, _⟩ => ⟨S1024x512, .f32⟩
  | .hbm, ⟨61, _⟩ => ⟨S1024x512, .f32⟩
  | .hbm, ⟨62, _⟩ => ⟨S1024x512, .f32⟩
  | .hbm, ⟨63, _⟩ => ⟨S1024x512, .f32⟩
  | .hbm, ⟨64, _⟩ => ⟨S1024x512, .i1⟩
  | .hbm, ⟨65, _⟩ => ⟨S1024x512, .f32⟩
  | .hbm, ⟨66, _⟩ => ⟨S1024x512, .bf16⟩
  | .hbm, ⟨67, _⟩ => ⟨S1024x512, .bf16⟩
  | .hbm, ⟨68, _⟩ => ⟨S1024x100000, .f32⟩
  | .local _ .vmem, ⟨0, _⟩ => ⟨S1024x512, .bf16⟩
  | .local _ .vmem, ⟨1, _⟩ => ⟨S1024x512, .bf16⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | _, _ => ⟨S1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_v6 : Ref sig .tc := ⟨.hbm, 16, rfl⟩
abbrev main_c_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_3 : Ref sig .tc := ⟨.hbm, 23, rfl⟩
abbrev main_v12 : Ref sig .tc := ⟨.hbm, 24, rfl⟩
abbrev main_v13 : Ref sig .tc := ⟨.hbm, 25, rfl⟩
abbrev main_c_4 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_5 : Ref sig .tc := ⟨.hbm, 32, rfl⟩
abbrev main_v19 : Ref sig .tc := ⟨.hbm, 33, rfl⟩
abbrev main_v20 : Ref sig .tc := ⟨.hbm, 34, rfl⟩
abbrev main_c_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_7 : Ref sig .tc := ⟨.hbm, 41, rfl⟩
abbrev main_v26 : Ref sig .tc := ⟨.hbm, 42, rfl⟩
abbrev main_v27 : Ref sig .tc := ⟨.hbm, 43, rfl⟩
abbrev main_c_8 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_call1_v0 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_call2_v0 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![98], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x512_0_1 : S1024x1.BroadcastsInDim S1024x512 (![0, 1] : Fin 2 → Fin S1024x512.rank)
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x1024_S1x1024_0_0 : ∀ a, (![0, 0] : Fin 2 → Nat) a + S1x1024.size a ≤ S1x1024.size a
  h_S1x1024 : 0 < S1x1024.numel
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  gather_S100000x512_S1024x1_S1024x512_1_0_n_n_0_1_1512_wf : GatherDims.WF S100000x512 S1024x1 S1024x512 [1] [0] [] [0] [] 1 ![1, 512]
  gather_S1000x512_S1024x1_S1024x512_1_0_n_n_0_1_1512_wf : GatherDims.WF S1000x512 S1024x1 S1024x512 [1] [0] [] [0] [] 1 ![1, 512]
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S1024x512.size a
  hwx0_0 : ∀ i : grid0.Coords, EltTy.bits .bf16 = 32 ∨ (Rect.block (s := S1024x512) S1024x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x512.size a
  hwx0_1 : ∀ i : grid0.Coords, EltTy.bits .bf16 = 32 ∨ (Rect.block (s := S1024x512) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1024x512.size a < S100000x512.size a
  hwx0_2 : ∀ i : grid0.Coords, EltTy.bits .f32 = 32 ∨ (Rect.unit (s := S100000x512) (fun a => cc0_transform_2 i a * S1024x512.size a) (fun a => (Pipeline.Clip.of (cc0_transform_2 i a) (S1024x512.size a) (S100000x512.size a)).extent (S1024x512.size a)) fun a => Pipeline.Clip.inb (Pipeline.Clip.ok_of (hstart0_2 i a))).WholeWords (EltTy.packing .f32)
  hwxs0_2 : ∀ i : grid0.Coords, EltTy.bits .f32 = 32 ∨ (Rect.unit (s := S1024x512) (fun _ => 0) (fun a => (Pipeline.Clip.of (cc0_transform_2 i a) (S1024x512.size a) (S100000x512.size a)).extent (S1024x512.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1024x512.size a < S100000x512.size a
  hwx0_3 : ∀ i : grid0.Coords, EltTy.bits .f32 = 32 ∨ (Rect.unit (s := S100000x512) (fun a => cc0_transform_3 i a * S1024x512.size a) (fun a => (Pipeline.Clip.of (cc0_transform_3 i a) (S1024x512.size a) (S100000x512.size a)).extent (S1024x512.size a)) fun a => Pipeline.Clip.inb (Pipeline.Clip.ok_of (hstart0_3 i a))).WholeWords (EltTy.packing .f32)
  hwxs0_3 : ∀ i : grid0.Coords, EltTy.bits .f32 = 32 ∨ (Rect.unit (s := S1024x512) (fun _ => 0) (fun a => (Pipeline.Clip.of (cc0_transform_3 i a) (S1024x512.size a) (S100000x512.size a)).extent (S1024x512.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S1x1024.size a < S1x100000.size a
  hwx0_4 : ∀ i : grid0.Coords, EltTy.bits .f32 = 32 ∨ (Rect.unit (s := S1x100000) (fun a => cc0_transform_4 i a * S1x1024.size a) (fun a => (Pipeline.Clip.of (cc0_transform_4 i a) (S1x1024.size a) (S1x100000.size a)).extent (S1x1024.size a)) fun a => Pipeline.Clip.inb (Pipeline.Clip.ok_of (hstart0_4 i a))).WholeWords (EltTy.packing .f32)
  hwxs0_4 : ∀ i : grid0.Coords, EltTy.bits .f32 = 32 ∨ (Rect.unit (s := S1x1024) (fun _ => 0) (fun a => (Pipeline.Clip.of (cc0_transform_4 i a) (S1x1024.size a) (S1x100000.size a)).extent (S1x1024.size a)) fun a => (Nat.zero_add _).trans_le (Pipeline.Clip.extent_le (Pipeline.Clip.ok_of (hstart0_4 i a)))).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S1024x1024.size a < S1024x100000.size a
  hwx0_5 : ∀ i : grid0.Coords, EltTy.bits .f32 = 32 ∨ (Rect.unit (s := S1024x100000) (fun a => cc0_transform_5 i a * S1024x1024.size a) (fun a => (Pipeline.Clip.of (cc0_transform_5 i a) (S1024x1024.size a) (S1024x100000.size a)).extent (S1024x1024.size a)) fun a => Pipeline.Clip.inb (Pipeline.Clip.ok_of (hstart0_5 i a))).WholeWords (EltTy.packing .f32)
  hwxs0_5 : ∀ i : grid0.Coords, EltTy.bits .f32 = 32 ∨ (Rect.unit (s := S1024x1024) (fun _ => 0) (fun a => (Pipeline.Clip.of (cc0_transform_5 i a) (S1024x1024.size a) (S1024x100000.size a)).extent (S1024x1024.size a)) fun a => (Nat.zero_add _).trans_le (Pipeline.Clip.extent_le (Pipeline.Clip.ok_of (hstart0_5 i a)))).WholeWords (EltTy.packing .f32)

variable [Facts₀]

def gather_S100000x512_S1024x1_S1024x512_1_0_n_n_0_1_1512 : GatherDims S100000x512 S1024x1 S1024x512 where
  offsetDims := [1]
  collapsedSliceDims := [0]
  operandBatchingDims := []
  startIndicesBatchingDims := []
  startIndexMap := [0]
  indexVectorDim := 1
  sliceSizes := ![1, 512]
  wf := gather_S100000x512_S1024x1_S1024x512_1_0_n_n_0_1_1512_wf
def gather_S1000x512_S1024x1_S1024x512_1_0_n_n_0_1_1512 : GatherDims S1000x512 S1024x1 S1024x512 where
  offsetDims := [1]
  collapsedSliceDims := [0]
  operandBatchingDims := []
  startIndicesBatchingDims := []
  startIndexMap := [0]
  indexVectorDim := 1
  sliceSizes := ![1, 512]
  wf := gather_S1000x512_S1024x1_S1024x512_1_0_n_n_0_1_1512_wf
def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_v47) S1024x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v48) S1024x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpecClip (Memref.whole main_arg2) S1024x512.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_arg3) S1024x512.size cc0_transform_3 reads0_3 false false 2 stage0_3 sem0_3
    hrank0 hreads0_3 hstart0_3 nbuf0_3 (Memref.isWhole_whole _) hwx0_3 hwxs0_3 hstage0_3

abbrev win0_4 : Pipeline.Window sig grid0 :=
  Pipeline.Window.ofSpecClip (Memref.whole main_arg6) S1x1024.size cc0_transform_4 reads0_4 false false 2 stage0_4 sem0_4
    hrank0 hreads0_4 hstart0_4 nbuf0_4 (Memref.isWhole_whole _) hwx0_4 hwxs0_4 hstage0_4

abbrev win0_5 : Pipeline.Window sig grid0 :=
  Pipeline.Window.ofSpecClip (Memref.whole main_v49) S1024x1024.size cc0_transform_5 reads0_5 true false 2 stage0_5 sem0_5
    hrank0 hreads0_5 hstart0_5 nbuf0_5 (Memref.isWhole_whole _) hwx0_5 hwxs0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1024 : Shape := ⟨1, ![1024]⟩
abbrev S100000x512 : Shape := ⟨2, ![100000, 512]⟩
abbrev S1000x512 : Shape := ⟨2, ![1000, 512]⟩
abbrev S1x100000 : Shape := ⟨2, ![1, 100000]⟩
abbrev S_ : Shape := ⟨0, ![]⟩
abbrev S1024x1 : Shape := ⟨2, ![1024, 1]⟩
abbrev S1024x512 : Shape := ⟨2, ![1024, 512]⟩
abbrev S512x100000 : Shape := ⟨2, ![512, 100000]⟩
abbrev S1024x100000 : Shape := ⟨2, ![1024, 100000]⟩

abbrev nBuf : Space → Nat
  | .hbm => 73
  | .vmem => 0
  | .smem => 0
  | _ => 0

abbrev bufTy : (tb : Table) → Fin (tcTables nBuf tb) → BufTy
  | .hbm, ⟨0, _⟩ => ⟨S1024, .i32⟩
  | .hbm, ⟨1, _⟩ => ⟨S1024, .i32⟩
  | .hbm, ⟨2, _⟩ => ⟨S100000x512, .f32⟩
  | .hbm, ⟨3, _⟩ => ⟨S100000x512, .f32⟩
  | .hbm, ⟨4, _⟩ => ⟨S1000x512, .f32⟩
  | .hbm, ⟨5, _⟩ => ⟨S1000x512, .f32⟩
  | .hbm, ⟨6, _⟩ => ⟨S1x100000, .f32⟩
  | .hbm, ⟨7, _⟩ => ⟨S_, .i32⟩
  | .hbm, ⟨8, _⟩ => ⟨S1024, .i32⟩
  | .hbm, ⟨9, _⟩ => ⟨S1024, .i1⟩
  | .hbm, ⟨10, _⟩ => ⟨S_, .i32⟩
  | .hbm, ⟨11, _⟩ => ⟨S1024, .i32⟩
  | .hbm, ⟨12, _⟩ => ⟨S1024, .i32⟩
  | .hbm, ⟨13, _⟩ => ⟨S1024, .i32⟩
  | .hbm, ⟨14, _⟩ => ⟨S_, .i32⟩
  | .hbm, ⟨15, _⟩ => ⟨S1024, .i32⟩
  | .hbm, ⟨16, _⟩ => ⟨S1024, .i1⟩
  | .hbm, ⟨17, _⟩ => ⟨S_, .i32⟩
  | .hbm, ⟨18, _⟩ => ⟨S1024, .i32⟩
  | .hbm, ⟨19, _⟩ => ⟨S1024, .i32⟩
  | .hbm, ⟨20, _⟩ => ⟨S1024, .i32⟩
  | .hbm, ⟨21, _⟩ => ⟨S1024x1, .i32⟩
  | .hbm, ⟨22, _⟩ => ⟨S1024x512, .f32⟩
  | .hbm, ⟨23, _⟩ => ⟨S_, .i32⟩
  | .hbm, ⟨24, _⟩ => ⟨S1024, .i32⟩
  | .hbm, ⟨25, _⟩ => ⟨S1024, .i1⟩
  | .hbm, ⟨26, _⟩ => ⟨S_, .i32⟩
  | .hbm, ⟨27, _⟩ => ⟨S1024, .i32⟩
  | .hbm, ⟨28, _⟩ => ⟨S1024, .i32⟩
  | .hbm, ⟨29, _⟩ => ⟨S1024, .i32⟩
  | .hbm, ⟨30, _⟩ => ⟨S1024x1, .i32⟩
  | .hbm, ⟨31, _⟩ => ⟨S1024x512, .f32⟩
  | .hbm, ⟨32, _⟩ => ⟨S_, .i32⟩
  | .hbm, ⟨33, _⟩ => ⟨S1024, .i32⟩
  | .hbm, ⟨34, _⟩ => ⟨S1024, .i1⟩
  | .hbm, ⟨35, _⟩ => ⟨S_, .i32⟩
  | .hbm, ⟨36, _⟩ => ⟨S1024, .i32⟩
  | .hbm, ⟨37, _⟩ => ⟨S1024, .i32⟩
  | .hbm, ⟨38, _⟩ => ⟨S1024, .i32⟩
  | .hbm, ⟨39, _⟩ => ⟨S1024x1, .i32⟩
  | .hbm, ⟨40, _⟩ => ⟨S1024x512, .f32⟩
  | .hbm, ⟨41, _⟩ => ⟨S_, .i32⟩
  | .hbm, ⟨42, _⟩ => ⟨S1024, .i32⟩
  | .hbm, ⟨43, _⟩ => ⟨S1024, .i1⟩
  | .hbm, ⟨44, _⟩ => ⟨S_, .i32⟩
  | .hbm, ⟨45, _⟩ => ⟨S1024, .i32⟩
  | .hbm, ⟨46, _⟩ => ⟨S1024, .i32⟩
  | .hbm, ⟨47, _⟩ => ⟨S1024, .i32⟩
  | .hbm, ⟨48, _⟩ => ⟨S1024x1, .i32⟩
  | .hbm, ⟨49, _⟩ => ⟨S1024x512, .f32⟩
  | .hbm, ⟨50, _⟩ => ⟨S1024x1, .i1⟩
  | .hbm, ⟨51, _⟩ => ⟨S1024x512, .f32⟩
  | .hbm, ⟨52, _⟩ => ⟨S1024x512, .f32⟩
  | .hbm, ⟨53, _⟩ => ⟨S1024x512, .f32⟩
  | .hbm, ⟨54, _⟩ => ⟨S1024x512, .f32⟩
  | .hbm, ⟨55, _⟩ => ⟨S1024x512, .i1⟩
  | .hbm, ⟨56, _⟩ => ⟨S1024x512, .f32⟩
  | .hbm, ⟨57, _⟩ => ⟨S1024x512, .f32⟩
  | .hbm, ⟨58, _⟩ => ⟨S1024x512, .f32⟩
  | .hbm, ⟨59, _⟩ => ⟨S1024x512, .f32⟩
  | .hbm, ⟨60, _⟩ => ⟨S1024x512, .f32⟩
  | .hbm, ⟨61, _⟩ => ⟨S1024x512, .f32⟩
  | .hbm, ⟨62, _⟩ => ⟨S1024x512, .f32⟩
  | .hbm, ⟨63, _⟩ => ⟨S1024x512, .f32⟩
  | .hbm, ⟨64, _⟩ => ⟨S1024x512, .i1⟩
  | .hbm, ⟨65, _⟩ => ⟨S1024x512, .f32⟩
  | .hbm, ⟨66, _⟩ => ⟨S512x100000, .f32⟩
  | .hbm, ⟨67, _⟩ => ⟨S1024x100000, .f32⟩
  | .hbm, ⟨68, _⟩ => ⟨S512x100000, .f32⟩
  | .hbm, ⟨69, _⟩ => ⟨S1024x100000, .f32⟩
  | .hbm, ⟨70, _⟩ => ⟨S1024x100000, .f32⟩
  | .hbm, ⟨71, _⟩ => ⟨S1024x100000, .f32⟩
  | .hbm, ⟨72, _⟩ => ⟨S1024x100000, .f32⟩
  | _, _ => ⟨S1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_v6 : Ref sig .tc := ⟨.hbm, 16, rfl⟩
abbrev main_c_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_3 : Ref sig .tc := ⟨.hbm, 23, rfl⟩
abbrev main_v12 : Ref sig .tc := ⟨.hbm, 24, rfl⟩
abbrev main_v13 : Ref sig .tc := ⟨.hbm, 25, rfl⟩
abbrev main_c_4 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_5 : Ref sig .tc := ⟨.hbm, 32, rfl⟩
abbrev main_v19 : Ref sig .tc := ⟨.hbm, 33, rfl⟩
abbrev main_v20 : Ref sig .tc := ⟨.hbm, 34, rfl⟩
abbrev main_c_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_7 : Ref sig .tc := ⟨.hbm, 41, rfl⟩
abbrev main_v26 : Ref sig .tc := ⟨.hbm, 42, rfl⟩
abbrev main_v27 : Ref sig .tc := ⟨.hbm, 43, rfl⟩
abbrev main_c_8 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_call1_v0 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_call2_v0 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩

abbrev nD : Nat := 1
abbrev τ : Topo := Topo.v7x

variable {F : FTy → Type} [FloatOps F]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x512_0_1 : S1024x1.BroadcastsInDim S1024x512 (![0, 1] : Fin 2 → Fin S1024x512.rank)
  transposes_S100000x512_S512x100000_1_0 : S100000x512.Transposes [1, 0] S512x100000
  bcast_S1x100000_S1024x100000_0_1 : S1x100000.BroadcastsInDim S1024x100000 (![0, 1] : Fin 2 → Fin S1024x100000.rank)
  gather_S100000x512_S1024x1_S1024x512_1_0_n_n_0_1_1512_wf : GatherDims.WF S100000x512 S1024x1 S1024x512 [1] [0] [] [0] [] 1 ![1, 512]
  gather_S1000x512_S1024x1_S1024x512_1_0_n_n_0_1_1512_wf : GatherDims.WF S1000x512 S1024x1 S1024x512 [1] [0] [] [0] [] 1 ![1, 512]
  dot_S1024x512_S512x100000_S1024x100000_1_0_0_1_n_n_wf : DotDims.WF S1024x512 S512x100000 S1024x100000 [1] [0] [0] [1] [] []

variable [Facts₀]

def gather_S100000x512_S1024x1_S1024x512_1_0_n_n_0_1_1512 : GatherDims S100000x512 S1024x1 S1024x512 where
  offsetDims := [1]
  collapsedSliceDims := [0]
  operandBatchingDims := []
  startIndicesBatchingDims := []
  startIndexMap := [0]
  indexVectorDim := 1
  sliceSizes := ![1, 512]
  wf := gather_S100000x512_S1024x1_S1024x512_1_0_n_n_0_1_1512_wf
def gather_S1000x512_S1024x1_S1024x512_1_0_n_n_0_1_1512 : GatherDims S1000x512 S1024x1 S1024x512 where
  offsetDims := [1]
  collapsedSliceDims := [0]
  operandBatchingDims := []
  startIndicesBatchingDims := []
  startIndexMap := [0]
  indexVectorDim := 1
  sliceSizes := ![1, 512]
  wf := gather_S1000x512_S1024x1_S1024x512_1_0_n_n_0_1_1512_wf
def dot_S1024x512_S512x100000_S1024x100000_1_0_0_1_n_n : DotDims S1024x512 S512x100000 S1024x100000 where
  lhsContracting := [1]
  rhsContracting := [0]
  lhsNonContracting := [0]
  rhsNonContracting := [1]
  lhsBatch := []
  rhsBatch := []
  wf := dot_S1024x512_S512x100000_S1024x100000_1_0_0_1_n_n_wf

class Facts : Prop extends Facts₀ where

variable [Facts]
-- ==== Proof.BitsBodyTriple.lean ====
/-
  The body of the one pallas_call, run once on symbolic staging buffers.

  The body reads its five input buffers whole (the two [1024, 512] left operands, the two [1024, 512]
  table tiles, the [1, 1024] mask tile), reads the output buffer (a read nothing uses), and overwrites the
  whole [1024, 1024] output buffer with ONE value: the sum of the two products and the broadcast mask, as a
  pure function of the five values read.  So after the body the inputs' buffers hold what they held and the
  output's buffer holds that function of them — whatever the buffers held past the arrays' ends.
-/
import proofs.«119518_j72576357368236_2_alg».proof.Proof.Gen.Kernel.Frame
import proofs.«119518_j72576357368236_2_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The whole [1024, 512] buffer as a rectangle: offset zero, the buffer's own extents. -/
abbrev rOperand : Rect S1024x512 := Rect.unit (s := S1024x512) ![0, 0] S1024x512.size inb_S1024x512_S1024x512_0_0
/-- The whole [1, 1024] buffer. -/
abbrev rMask : Rect S1x1024 := Rect.unit (s := S1x1024) ![0, 0] S1x1024.size inb_S1x1024_S1x1024_0_0
/-- The whole [1024, 1024] buffer. -/
abbrev rOut : Rect S1024x1024 := Rect.unit (s := S1024x1024) ![0, 0] S1024x1024.size inb_S1024x1024_S1024x1024_0_0

/-- What the output's buffer holds after the body, from what the five input buffers hold: its one store,
    over the whole buffer, of the body's one arithmetic value of the five whole loads. -/
def bodyOut (x0 x1 : Vec F S1024x512 .bf16) (x2 x3 : Vec F S1024x512 .f32) (x4 : Vec F S1x1024 .f32) : Vec F S1024x1024 .f32 :=
  View.canon [⟨rOut, k0_pay1 (View.ld x0 rOperand) (View.ld x1 rOperand) (View.ld x2 rOperand) (View.ld x3 rOperand) (View.ld x4 rMask)⟩]

/-- The one store covers the buffer. -/
theorem cover_out (p0 : Vec F S1024x1024 .f32) (y : S1024x1024.Idx) :
    ∃ pc ∈ ([⟨rOut, p0⟩] : List (View.Piece (Elt F) S1024x1024 .f32)), y ∈ pc.1.set :=
  View.cover_of_tiled [⟨rOut, p0⟩] S1024x1024.size (by rfl) y

set_option maxHeartbeats 1000000 in
/-- The body on whole staging memrefs: the inputs' buffers at contents `x0 … x4`, the output's at anything; it runs
    to the continuation with the inputs' buffers as they were and the output's at `bodyOut` of them. -/
theorem sound_kernel (c : Dev nD) (E : Set ℕ) (i : grid0.Coords)
    (arg1 : Memref sig .tc .vmem S1024x512 .bf16) (harg1 : arg1.IsWhole) (arg2 : Memref sig .tc .vmem S1024x512 .bf16) (harg2 : arg2.IsWhole)
    (arg3 : Memref sig .tc .vmem S1024x512 .f32) (harg3 : arg3.IsWhole) (arg4 : Memref sig .tc .vmem S1024x512 .f32) (harg4 : arg4.IsWhole)
    (arg5 : Memref sig .tc .vmem S1x1024 .f32) (harg5 : arg5.IsWhole) (arg6 : Memref sig .tc .vmem S1024x1024 .f32) (harg6 : arg6.IsWhole)
    (x0 x1 : Vec F S1024x512 .bf16) (x2 x3 : Vec F S1024x512 .f32) (x4 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (bodyOut x0 x1 x2 x3 x4)) -∗ K ⟨⟩))
      ⊢ wp frame (wpE (defs₀ (F := F)) Variants.none c none) E
          (cc0__gemv_kernel i arg1 harg1 arg2 harg2 arg3 harg3 arg4 harg4 arg5 harg5 arg6 harg6) K := by
  simp only [cc0__gemv_kernel_eq_skeleton]; unfold cc0__gemv_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_out _)

end Cert.Kernel.Body

end
-- ==== Proof.BitsBodyData.lean ====
/-
  The proof data of the one pallas_call and its body obligation, at every grid point.

  The grid has 98 points; point t stages rows [1024 t, 1024 t + 1024) of the two entity tables, columns
  [1024 t, 1024 t + 1024) of the mask, and writes back the same columns of the result.  The tables have
  100000 rows, so the last point's blocks overhang the arrays by 352 rows (columns): there the transfers are
  cut, and past the cut a staging buffer holds words nothing names.  The two left operands are staged whole,
  once.

  What each staging buffer holds when the body runs at point t: the left operands their arrays; each table
  (mask) tile the array's rows (columns) inside the array, anything past them; the output's buffer anything.
  After the body the inputs' buffers hold the same and the output's the body's value of them.  Of the buffers
  with a cut the obligation speaks only on the part the transfers move.

  Two obligations are proved from the one run of the body: one that names what the output's buffer holds
  on the moved part (given a function that agrees with the body's value there, whatever lies past the cuts),
  and one that says nothing of the output's buffer at all.
-/
import proofs.«119518_j72576357368236_2_alg».proof.Proof.BitsBodyTriple

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- A table tile, the mask tile: the array's part of the block, filled out past the cut with a word of the
    proof's choosing (the zero word) that nothing reads. -/
def tile2 (c : Dev nD) (t : Fin cfg0.N) : S1024x512.Idx → Elt F .f32 :=
  win0_2.fill (grid0.coords t) (fun _ => Scalar.ofBits .f32 0#32) (iblk m c 2 t)
def tile3 (c : Dev nD) (t : Fin cfg0.N) : S1024x512.Idx → Elt F .f32 :=
  win0_3.fill (grid0.coords t) (fun _ => Scalar.ofBits .f32 0#32) (iblk m c 3 t)
def tile4 (c : Dev nD) (t : Fin cfg0.N) : S1x1024.Idx → Elt F .f32 :=
  win0_4.fill (grid0.coords t) (fun _ => Scalar.ofBits .f32 0#32) (iblk m c 4 t)

/-- The proof data on core `c`: the arrays as the region finds them; after the body the left operands' buffers at
    their arrays, the tiles' at `tile2 … tile4`, the output's at `out t`; the class's invariant; nothing owed;
    full shares. -/
def dats (out : Fin cfg0.N → S1024x1024.Idx → Elt F .f32) (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => tile2 m c t
    | ⟨3, _⟩ => tile3 m c t
    | ⟨4, _⟩ => tile4 m c t
    | ⟨5, _⟩ => out t
  Φ _ := Pipeline.ΦA spec0 c
  q _ := fullShare
  owed _ := 0

variable (out : Fin cfg0.N → S1024x1024.Idx → Elt F .f32)

theorem A_eq (c : Dev nD) (w : Fin cfg0.W) : (dats m out 0 c).A w = V m c (Pipeline.arrRef spec0 w) := by
  dsimp only [dats]

theorem after_0 (c : Dev nD) (t : Fin cfg0.N) : (dats m out 0 c).after 0 t = iblk m c 0 t := by dsimp only [dats]
theorem after_1 (c : Dev nD) (t : Fin cfg0.N) : (dats m out 0 c).after 1 t = iblk m c 1 t := by dsimp only [dats]
theorem after_2 (c : Dev nD) (t : Fin cfg0.N) : (dats m out 0 c).after 2 t = tile2 m c t := by dsimp only [dats]
theorem after_3 (c : Dev nD) (t : Fin cfg0.N) : (dats m out 0 c).after 3 t = tile3 m c t := by dsimp only [dats]
theorem after_4 (c : Dev nD) (t : Fin cfg0.N) : (dats m out 0 c).after 4 t = tile4 m c t := by dsimp only [dats]
theorem after_5 (c : Dev nD) (t : Fin cfg0.N) : (dats m out 0 c).after 5 t = out t := by dsimp only [dats]

/-! ## What the body finds -/

theorem before_0 (c : Dev nD) (t : Fin cfg0.N) (d) : (dats m out 0 c).before 0 t d = iblk m c 0 t :=
  before0_0_of m (dats m out 0 c) (A_eq m out c 0) (after_0 m out c) t d
theorem before_1 (c : Dev nD) (t : Fin cfg0.N) (d) : (dats m out 0 c).before 1 t d = iblk m c 1 t :=
  before0_1_of m (dats m out 0 c) (A_eq m out c 1) (after_1 m out c) t d

/-- A tile's buffer was fetched at this very point: the array's part of the block, `d` past the cut. -/
theorem before_2 (c : Dev nD) (t : Fin cfg0.N) (d) :
    (dats m out 0 c).before 2 t d = win0_2.fill (grid0.coords t) d (iblk m c 2 t) := by
  unfold Dat.before; rw [if_pos (fetch0_2 t)]; unfold Dat.fetched Dat.blockOf iblk; rw [A_eq]
theorem before_3 (c : Dev nD) (t : Fin cfg0.N) (d) :
    (dats m out 0 c).before 3 t d = win0_3.fill (grid0.coords t) d (iblk m c 3 t) := by
  unfold Dat.before; rw [if_pos (fetch0_3 t)]; unfold Dat.fetched Dat.blockOf iblk; rw [A_eq]
theorem before_4 (c : Dev nD) (t : Fin cfg0.N) (d) :
    (dats m out 0 c).before 4 t d = win0_4.fill (grid0.coords t) d (iblk m c 4 t) := by
  unfold Dat.before; rw [if_pos (fetch0_4 t)]; unfold Dat.fetched Dat.blockOf iblk; rw [A_eq]

/-- The output's buffer is written back at every point: at each point the body finds it at contents nothing names. -/
theorem before_5 (c : Dev nD) (t : Fin cfg0.N) (d) : (dats m out 0 c).before 5 t d = d := by
  refine (dats m out 0 c).before_out_reset 5 rfl t ?_ d
  by_cases h0 : t.val = 0
  · exact .inl h0
  · exact .inr ⟨h0, flush0_5 _⟩

/-! ## The body at a point -/

/-- The body at point `t`, the tiles' buffers filled out past the cut with any `d2 d3 d4` and the output's buffer
    holding any `d5`: the inputs' buffers are left as found and the output's holds the body's value of them. -/
theorem sound_point (c : Dev nD) (t : Fin cfg0.N) (d2 d3 : S1024x512.Idx → Elt F .f32) (d4 : S1x1024.Idx → Elt F .f32)
    (d5 : S1024x1024.Idx → Elt F .f32) (K : PUnit → sProp 𝕄) :
    iprop(owns (c : Thread nD τ) (st0_0 t) fullShare (iblk m c 0 t) ∗ owns (c : Thread nD τ) (st0_1 t) fullShare (iblk m c 1 t)
        ∗ owns (c : Thread nD τ) (st0_2 t) fullShare (win0_2.fill (grid0.coords t) d2 (iblk m c 2 t))
        ∗ owns (c : Thread nD τ) (st0_3 t) fullShare (win0_3.fill (grid0.coords t) d3 (iblk m c 3 t))
        ∗ owns (c : Thread nD τ) (st0_4 t) fullShare (win0_4.fill (grid0.coords t) d4 (iblk m c 4 t))
        ∗ owns (c : Thread nD τ) (st0_5 t) fullShare d5
        ∗ (iprop(owns (c : Thread nD τ) (st0_0 t) fullShare (iblk m c 0 t) ∗ owns (c : Thread nD τ) (st0_1 t) fullShare (iblk m c 1 t)
            ∗ owns (c : Thread nD τ) (st0_2 t) fullShare (win0_2.fill (grid0.coords t) d2 (iblk m c 2 t))
            ∗ owns (c : Thread nD τ) (st0_3 t) fullShare (win0_3.fill (grid0.coords t) d3 (iblk m c 3 t))
            ∗ owns (c : Thread nD τ) (st0_4 t) fullShare (win0_4.fill (grid0.coords t) d4 (iblk m c 4 t))
            ∗ owns (c : Thread nD τ) (st0_5 t) fullShare
                (bodyOut (iblk m c 0 t) (iblk m c 1 t) (win0_2.fill (grid0.coords t) d2 (iblk m c 2 t))
                  (win0_3.fill (grid0.coords t) d3 (iblk m c 3 t)) (win0_4.fill (grid0.coords t) d4 (iblk m c 4 t)))) -∗ K ⟨⟩))
      ⊢ wp frame (wpE (defs₀ (F := F)) Variants.none c none) Set.univ (bodyAt0 t) K := by
  unfold bodyAt0
  iintro ⟨H0, H1, H2, H3, H4, H5, Hk⟩
  iapply (sound_kernel c Set.univ (grid0.coords t) _ _ _ _ _ _ _ _ _ _ _ _ (iblk m c 0 t) (iblk m c 1 t)
    (win0_2.fill (grid0.coords t) d2 (iblk m c 2 t)) (win0_3.fill (grid0.coords t) d3 (iblk m c 3 t))
    (win0_4.fill (grid0.coords t) d4 (iblk m c 4 t)) _)
  isplitl [H0]; · iexact H0
  isplitl [H1]; · iexact H1
  isplitl [H2]; · iexact H2
  isplitl [H3]; · iexact H3
  isplitl [H4]; · iexact H4
  isplitl [H5]; · iexists d5; iexact H5
  iexact Hk

/-- Which windows an obligation that says nothing of the result leaves unnamed: the output's. -/
abbrev forgetOut : Fin cfg0.W → Bool := fun | 0 => false | 1 => false | 2 => false | 3 => false | 4 => false | 5 => true | ⟨_ + 6, h⟩ => absurd h (Nat.not_lt.2 (Nat.le_add_left _ _))

/-- The body obligation that says nothing of the output's buffer: the inputs' buffers are handed back as found —
    a tile's on the part its fetch fills — and the output's at whatever the body left. -/
theorem body_obligation_forget (c : Dev nD) :
    BodyObligationLoose (dats (F := F) m out 0 c) (defs₀ (F := F)) Variants.none () Set.univ forgetOut := fun t => by
  rw [bigSep_W0, bigSep_W0]
  simp only
  rw [show (dats m out 0 c).Φ t.succ = (dats m out 0 c).Φ t.castSucc from rfl,
    show (dats m out 0 c).owesAt () t.succ = (dats m out 0 c).owesAt () t.castSucc from rfl]
  iintro ⟨HΦ, Ho, ⟨%d0, H0⟩, ⟨%d1, H1⟩, ⟨%d2, H2⟩, ⟨%d3, H3⟩, ⟨%d4, H4⟩, ⟨%d5, H5⟩⟩
  rw [before_0 m out c t d0, before_1 m out c t d1, before_2 m out c t d2, before_3 m out c t d3, before_4 m out c t d4]
  iapply (sound_point (F := F) m c t d2 d3 d4 d5 _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [Ho]; · iexact Ho
  rw [after_0, after_1, after_2, after_3, after_4]
  isplitl [H0]; · iexact H0
  isplitl [H1]; · iexact H1
  isplitl [H2]
  · iexists d2
    rw [show win0_2.cut (grid0.coords t) (tile2 m c t) = iblk m c 2 t from win0_2.cut_fill _ _ _]; iexact H2
  isplitl [H3]
  · iexists d3
    rw [show win0_3.cut (grid0.coords t) (tile3 m c t) = iblk m c 3 t from win0_3.cut_fill _ _ _]; iexact H3
  isplitl [H4]
  · iexists d4
    rw [show win0_4.cut (grid0.coords t) (tile4 m c t) = iblk m c 4 t from win0_4.cut_fill _ _ _]; iexact H4
  · iexists _; iexact H5

/-- The body obligation that names the output's buffer on the part written back: for any `out` that agrees
    there with the body's value, whatever fills the tiles' buffers past their cuts. -/
theorem body_obligation_exact (c : Dev nD)
    (hout : ∀ (t : Fin cfg0.N) (d2 d3 : S1024x512.Idx → Elt F .f32) (d4 : S1x1024.Idx → Elt F .f32),
      win0_5.cut (grid0.coords t) (bodyOut (iblk m c 0 t) (iblk m c 1 t) (win0_2.fill (grid0.coords t) d2 (iblk m c 2 t))
        (win0_3.fill (grid0.coords t) d3 (iblk m c 3 t)) (win0_4.fill (grid0.coords t) d4 (iblk m c 4 t)))
      = win0_5.cut (grid0.coords t) (out t)) :
    BodyObligationLoose (dats (F := F) m out 0 c) (defs₀ (F := F)) Variants.none () Set.univ := fun t => by
  rw [bigSep_W0, bigSep_W0]
  simp only
  rw [show (dats m out 0 c).Φ t.succ = (dats m out 0 c).Φ t.castSucc from rfl,
    show (dats m out 0 c).owesAt () t.succ = (dats m out 0 c).owesAt () t.castSucc from rfl]
  iintro ⟨HΦ, Ho, ⟨%d0, H0⟩, ⟨%d1, H1⟩, ⟨%d2, H2⟩, ⟨%d3, H3⟩, ⟨%d4, H4⟩, ⟨%d5, H5⟩⟩
  rw [before_0 m out c t d0, before_1 m out c t d1, before_2 m out c t d2, before_3 m out c t d3, before_4 m out c t d4,
    before_5 m out c t d5]
  iapply (sound_point (F := F) m c t d2 d3 d4 d5 _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [Ho]; · iexact Ho
  rw [after_0, after_1, after_2, after_3, after_4, after_5]
  isplitl [H0]; · iexact H0
  isplitl [H1]; · iexact H1
  isplitl [H2]
  · iexists d2
    rw [show win0_2.cut (grid0.coords t) (tile2 m c t) = iblk m c 2 t from win0_2.cut_fill _ _ _]; iexact H2
  isplitl [H3]
  · iexists d3
    rw [show win0_3.cut (grid0.coords t) (tile3 m c t) = iblk m c 3 t from win0_3.cut_fill _ _ _]; iexact H3
  isplitl [H4]
  · iexists d4
    rw [show win0_4.cut (grid0.coords t) (tile4 m c t) = iblk m c 4 t from win0_4.cut_fill _ _ _]; iexact H4
  · iexists _
    rw [win0_5.fill_congr_cut (grid0.coords t) (hout t d2 d3 d4)]; iexact H5

end Cert.Kernel.Body

end
-- ==== Proof.BitsRun.lean ====
/-
  The runs of the whole program from the body obligations.

  `run_exact`: every weakly fair execution terminates without a fault, every array of the pallas_call ends at
  what the proof data computes (an input as the region found it; the result its entry contents overwritten,
  point by point, by the moved part of what the body left) and every other buffer as the region found it.

  `frame_forget`: the same run read without naming what the body leaves in the output's buffer — enough to
  say that the seven argument arrays end as they were launched: two are windows' arrays only through the
  host's values (no window stages them), the tables and the mask are input windows' arrays, never written.
-/
import proofs.«119518_j72576357368236_2_alg».proof.Proof.BitsBodyData

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

variable (m : (ℓ : Loc nD τ sig) → Buf (Elt F) ℓ) (ρ : Dev nD → PrngReg)
variable (out : (c : Dev nD) → Fin cfg0.N → S1024x1024.Idx → Elt F .f32)

set_option backward.isDefEq.respectTransparency.types false in
/-- The run that names the result: for any `out` agreeing with the body's value on the part written back. -/
theorem run_exact
    (hout : ∀ (c : Dev nD) (t : Fin cfg0.N) (d2 d3 : S1024x512.Idx → Elt F .f32) (d4 : S1x1024.Idx → Elt F .f32),
      win0_5.cut (grid0.coords t) (bodyOut (iblk m c 0 t) (iblk m c 1 t) (win0_2.fill (grid0.coords t) d2 (iblk m c 2 t))
        (win0_3.fill (grid0.coords t) d3 (iblk m c 3 t)) (win0_4.fill (grid0.coords t) d4 (iblk m c 4 t)))
      = win0_5.cut (grid0.coords t) (out c t)) :
    θ_run defs (onTc (τ := τ) (main (F := F))) (s₀ m ρ)
      (Pipeline.FramePost cfgs (fun p c => dats m (out c) p c) 0 (V m)) :=
  Pipeline.θ_run_frame cfgs (fun p c => dats m (out c) p c) (0 : Fin 1) launch0 defs₀ Variants.none m ρ main
    (hbody := fun c => body_obligation_exact m (out c) c (hout c))
    (hshare := fun c => (dats m (out c) 0 c).share_full fun _ => rfl)
    (howed := fun _ _ => rfl) (V := V m) (hmain := hmain m Variants.none) (hA := fun c w => A_eq m (out c) c w)
    (hΦ := fun _ _ => rfl)

/-- The output's buffer left unnamed: the filler of the proof data's sixth field, which nothing reads. -/
abbrev anyOut : Fin cfg0.N → S1024x1024.Idx → Elt F .f32 := fun _ _ => Scalar.ofBits .f32 0#32

set_option backward.isDefEq.respectTransparency.types false in
/-- The run that says nothing of what the body leaves in the output's buffer. -/
theorem run_forget :
    θ_run defs (onTc (τ := τ) (main (F := F))) (s₀ m ρ)
      (Pipeline.RDat.FramePost cfg0 (fun c => (dats m anyOut 0 c).toRForget forgetOut) (V m)) :=
  Pipeline.RDat.θ_run_frame cfgs (0 : Fin 1) launch0 defs₀ Variants.none (fun c => (dats m anyOut 0 c).toRForget forgetOut) m ρ main
    (hbody := fun c => (body_obligation_forget m anyOut c).toRForget)
    (hshare := fun c w => (dats m anyOut 0 c).share_full (fun _ => rfl) w)
    (howed := fun _ _ => rfl) (V := V m) (hmain := hmain m Variants.none) (hA := fun c w => A_eq m anyOut c w)
    (hΦ := fun _ _ => rfl)

/-- An input window's array after that run is the array as the region found it: it is never written back. -/
theorem input_kept {r : PUnit × MemSt nD τ sig (Elt F)}
    (h : Pipeline.RDat.FramePost cfg0 (fun c => (dats m anyOut 0 c).toRForget forgetOut) (V m) r)
    (c : Dev nD) (w : Fin cfg0.W) (hin : (cfg0.win w).isOut = false) :
    r.2.mem ((cfg0.spec w).arr.view.loc (c.tc : Thread nD τ)) = V m c (Pipeline.arrRef spec0 w) := by
  have h1 := (h c).1 w
  rw [Pipeline.RDat.ArrAt_in _ w hin] at h1
  exact h1.trans (A_eq m anyOut c w)

/-- THE FRAME: every weakly fair execution terminates without a fault and the seven argument arrays end as
    launched. -/
theorem frame_forget :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (input_kept m h c 2 rfl).trans (V_main_arg2 m c),
      (input_kept m h c 3 rfl).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      (input_kept m h c 4 rfl).trans (V_main_arg6 m c)⟩) (run_forget m ρ)

end Cert.Kernel.Body

end
-- ==== Proof.IdealBodyTriple.lean ====
/-
  The body of the one pallas_call, run once on symbolic staging buffers.

  The body reads its five input buffers whole (the two [1024, 512] left operands, the two [1024, 512]
  table tiles, the [1, 1024] mask tile), reads the output buffer (a read nothing uses), and overwrites the
  whole [1024, 1024] output buffer with ONE value: the sum of the two products and the broadcast mask, as a
  pure function of the five values read.  So after the body the inputs' buffers hold what they held and the
  output's buffer holds that function of them — whatever the buffers held past the arrays' ends.
-/
import proofs.«119518_j72576357368236_2_alg».proof.Proof.Gen.KernelIdeal.Frame
import proofs.«119518_j72576357368236_2_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The whole [1024, 512] buffer as a rectangle: offset zero, the buffer's own extents. -/
abbrev rOperand : Rect S1024x512 := Rect.unit (s := S1024x512) ![0, 0] S1024x512.size inb_S1024x512_S1024x512_0_0
/-- The whole [1, 1024] buffer. -/
abbrev rMask : Rect S1x1024 := Rect.unit (s := S1x1024) ![0, 0] S1x1024.size inb_S1x1024_S1x1024_0_0
/-- The whole [1024, 1024] buffer. -/
abbrev rOut : Rect S1024x1024 := Rect.unit (s := S1024x1024) ![0, 0] S1024x1024.size inb_S1024x1024_S1024x1024_0_0

/-- What the output's buffer holds after the body, from what the five input buffers hold: its one store,
    over the whole buffer, of the body's one arithmetic value of the five whole loads. -/
def bodyOut (x0 x1 : Vec F S1024x512 .bf16) (x2 x3 : Vec F S1024x512 .f32) (x4 : Vec F S1x1024 .f32) : Vec F S1024x1024 .f32 :=
  View.canon [⟨rOut, k0_pay1 (View.ld x0 rOperand) (View.ld x1 rOperand) (View.ld x2 rOperand) (View.ld x3 rOperand) (View.ld x4 rMask)⟩]

/-- The one store covers the buffer. -/
theorem cover_out (p0 : Vec F S1024x1024 .f32) (y : S1024x1024.Idx) :
    ∃ pc ∈ ([⟨rOut, p0⟩] : List (View.Piece (Elt F) S1024x1024 .f32)), y ∈ pc.1.set :=
  View.cover_of_tiled [⟨rOut, p0⟩] S1024x1024.size (by rfl) y

set_option maxHeartbeats 1000000 in
/-- The body on whole staging memrefs: the inputs' buffers at contents `x0 … x4`, the output's at anything; it runs
    to the continuation with the inputs' buffers as they were and the output's at `bodyOut` of them. -/
theorem sound_kernel (c : Dev nD) (E : Set ℕ) (i : grid0.Coords)
    (arg1 : Memref sig .tc .vmem S1024x512 .bf16) (harg1 : arg1.IsWhole) (arg2 : Memref sig .tc .vmem S1024x512 .bf16) (harg2 : arg2.IsWhole)
    (arg3 : Memref sig .tc .vmem S1024x512 .f32) (harg3 : arg3.IsWhole) (arg4 : Memref sig .tc .vmem S1024x512 .f32) (harg4 : arg4.IsWhole)
    (arg5 : Memref sig .tc .vmem S1x1024 .f32) (harg5 : arg5.IsWhole) (arg6 : Memref sig .tc .vmem S1024x1024 .f32) (harg6 : arg6.IsWhole)
    (x0 x1 : Vec F S1024x512 .bf16) (x2 x3 : Vec F S1024x512 .f32) (x4 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (bodyOut x0 x1 x2 x3 x4)) -∗ K ⟨⟩))
      ⊢ wp frame (wpE (defs₀ (F := F)) Variants.none c none) E
          (cc0__gemv_kernel i arg1 harg1 arg2 harg2 arg3 harg3 arg4 harg4 arg5 harg5 arg6 harg6) K := by
  simp only [cc0__gemv_kernel_eq_skeleton]; unfold cc0__gemv_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_out _)

end Cert.KernelIdeal.Body

end
-- ==== Proof.IdealBodyData.lean ====
/-
  The proof data of the one pallas_call and its body obligation, at every grid point.

  The grid has 98 points; point t stages rows [1024 t, 1024 t + 1024) of the two entity tables, columns
  [1024 t, 1024 t + 1024) of the mask, and writes back the same columns of the result.  The tables have
  100000 rows, so the last point's blocks overhang the arrays by 352 rows (columns): there the transfers are
  cut, and past the cut a staging buffer holds words nothing names.  The two left operands are staged whole,
  once.

  What each staging buffer holds when the body runs at point t: the left operands their arrays; each table
  (mask) tile the array's rows (columns) inside the array, anything past them; the output's buffer anything.
  After the body the inputs' buffers hold the same and the output's the body's value of them.  Of the buffers
  with a cut the obligation speaks only on the part the transfers move.

  Two obligations are proved from the one run of the body: one that names what the output's buffer holds
  on the moved part (given a function that agrees with the body's value there, whatever lies past the cuts),
  and one that says nothing of the output's buffer at all.
-/
import proofs.«119518_j72576357368236_2_alg».proof.Proof.IdealBodyTriple

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- A table tile, the mask tile: the array's part of the block, filled out past the cut with a word of the
    proof's choosing (the zero word) that nothing reads. -/
def tile2 (c : Dev nD) (t : Fin cfg0.N) : S1024x512.Idx → Elt F .f32 :=
  win0_2.fill (grid0.coords t) (fun _ => Scalar.ofBits .f32 0#32) (iblk m c 2 t)
def tile3 (c : Dev nD) (t : Fin cfg0.N) : S1024x512.Idx → Elt F .f32 :=
  win0_3.fill (grid0.coords t) (fun _ => Scalar.ofBits .f32 0#32) (iblk m c 3 t)
def tile4 (c : Dev nD) (t : Fin cfg0.N) : S1x1024.Idx → Elt F .f32 :=
  win0_4.fill (grid0.coords t) (fun _ => Scalar.ofBits .f32 0#32) (iblk m c 4 t)

/-- The proof data on core `c`: the arrays as the region finds them; after the body the left operands' buffers at
    their arrays, the tiles' at `tile2 … tile4`, the output's at `out t`; the class's invariant; nothing owed;
    full shares. -/
def dats (out : Fin cfg0.N → S1024x1024.Idx → Elt F .f32) (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => tile2 m c t
    | ⟨3, _⟩ => tile3 m c t
    | ⟨4, _⟩ => tile4 m c t
    | ⟨5, _⟩ => out t
  Φ _ := Pipeline.ΦA spec0 c
  q _ := fullShare
  owed _ := 0

variable (out : Fin cfg0.N → S1024x1024.Idx → Elt F .f32)

theorem A_eq (c : Dev nD) (w : Fin cfg0.W) : (dats m out 0 c).A w = V m c (Pipeline.arrRef spec0 w) := by
  dsimp only [dats]

theorem after_0 (c : Dev nD) (t : Fin cfg0.N) : (dats m out 0 c).after 0 t = iblk m c 0 t := by dsimp only [dats]
theorem after_1 (c : Dev nD) (t : Fin cfg0.N) : (dats m out 0 c).after 1 t = iblk m c 1 t := by dsimp only [dats]
theorem after_2 (c : Dev nD) (t : Fin cfg0.N) : (dats m out 0 c).after 2 t = tile2 m c t := by dsimp only [dats]
theorem after_3 (c : Dev nD) (t : Fin cfg0.N) : (dats m out 0 c).after 3 t = tile3 m c t := by dsimp only [dats]
theorem after_4 (c : Dev nD) (t : Fin cfg0.N) : (dats m out 0 c).after 4 t = tile4 m c t := by dsimp only [dats]
theorem after_5 (c : Dev nD) (t : Fin cfg0.N) : (dats m out 0 c).after 5 t = out t := by dsimp only [dats]

/-! ## What the body finds -/

theorem before_0 (c : Dev nD) (t : Fin cfg0.N) (d) : (dats m out 0 c).before 0 t d = iblk m c 0 t :=
  before0_0_of m (dats m out 0 c) (A_eq m out c 0) (after_0 m out c) t d
theorem before_1 (c : Dev nD) (t : Fin cfg0.N) (d) : (dats m out 0 c).before 1 t d = iblk m c 1 t :=
  before0_1_of m (dats m out 0 c) (A_eq m out c 1) (after_1 m out c) t d

/-- A tile's buffer was fetched at this very point: the array's part of the block, `d` past the cut. -/
theorem before_2 (c : Dev nD) (t : Fin cfg0.N) (d) :
    (dats m out 0 c).before 2 t d = win0_2.fill (grid0.coords t) d (iblk m c 2 t) := by
  unfold Dat.before; rw [if_pos (fetch0_2 t)]; unfold Dat.fetched Dat.blockOf iblk; rw [A_eq]
theorem before_3 (c : Dev nD) (t : Fin cfg0.N) (d) :
    (dats m out 0 c).before 3 t d = win0_3.fill (grid0.coords t) d (iblk m c 3 t) := by
  unfold Dat.before; rw [if_pos (fetch0_3 t)]; unfold Dat.fetched Dat.blockOf iblk; rw [A_eq]
theorem before_4 (c : Dev nD) (t : Fin cfg0.N) (d) :
    (dats m out 0 c).before 4 t d = win0_4.fill (grid0.coords t) d (iblk m c 4 t) := by
  unfold Dat.before; rw [if_pos (fetch0_4 t)]; unfold Dat.fetched Dat.blockOf iblk; rw [A_eq]

/-- The output's buffer is written back at every point: at each point the body finds it at contents nothing names. -/
theorem before_5 (c : Dev nD) (t : Fin cfg0.N) (d) : (dats m out 0 c).before 5 t d = d := by
  refine (dats m out 0 c).before_out_reset 5 rfl t ?_ d
  by_cases h0 : t.val = 0
  · exact .inl h0
  · exact .inr ⟨h0, flush0_5 _⟩

/-! ## The body at a point -/

/-- The body at point `t`, the tiles' buffers filled out past the cut with any `d2 d3 d4` and the output's buffer
    holding any `d5`: the inputs' buffers are left as found and the output's holds the body's value of them. -/
theorem sound_point (c : Dev nD) (t : Fin cfg0.N) (d2 d3 : S1024x512.Idx → Elt F .f32) (d4 : S1x1024.Idx → Elt F .f32)
    (d5 : S1024x1024.Idx → Elt F .f32) (K : PUnit → sProp 𝕄) :
    iprop(owns (c : Thread nD τ) (st0_0 t) fullShare (iblk m c 0 t) ∗ owns (c : Thread nD τ) (st0_1 t) fullShare (iblk m c 1 t)
        ∗ owns (c : Thread nD τ) (st0_2 t) fullShare (win0_2.fill (grid0.coords t) d2 (iblk m c 2 t))
        ∗ owns (c : Thread nD τ) (st0_3 t) fullShare (win0_3.fill (grid0.coords t) d3 (iblk m c 3 t))
        ∗ owns (c : Thread nD τ) (st0_4 t) fullShare (win0_4.fill (grid0.coords t) d4 (iblk m c 4 t))
        ∗ owns (c : Thread nD τ) (st0_5 t) fullShare d5
        ∗ (iprop(owns (c : Thread nD τ) (st0_0 t) fullShare (iblk m c 0 t) ∗ owns (c : Thread nD τ) (st0_1 t) fullShare (iblk m c 1 t)
            ∗ owns (c : Thread nD τ) (st0_2 t) fullShare (win0_2.fill (grid0.coords t) d2 (iblk m c 2 t))
            ∗ owns (c : Thread nD τ) (st0_3 t) fullShare (win0_3.fill (grid0.coords t) d3 (iblk m c 3 t))
            ∗ owns (c : Thread nD τ) (st0_4 t) fullShare (win0_4.fill (grid0.coords t) d4 (iblk m c 4 t))
            ∗ owns (c : Thread nD τ) (st0_5 t) fullShare
                (bodyOut (iblk m c 0 t) (iblk m c 1 t) (win0_2.fill (grid0.coords t) d2 (iblk m c 2 t))
                  (win0_3.fill (grid0.coords t) d3 (iblk m c 3 t)) (win0_4.fill (grid0.coords t) d4 (iblk m c 4 t)))) -∗ K ⟨⟩))
      ⊢ wp frame (wpE (defs₀ (F := F)) Variants.none c none) Set.univ (bodyAt0 t) K := by
  unfold bodyAt0
  iintro ⟨H0, H1, H2, H3, H4, H5, Hk⟩
  iapply (sound_kernel c Set.univ (grid0.coords t) _ _ _ _ _ _ _ _ _ _ _ _ (iblk m c 0 t) (iblk m c 1 t)
    (win0_2.fill (grid0.coords t) d2 (iblk m c 2 t)) (win0_3.fill (grid0.coords t) d3 (iblk m c 3 t))
    (win0_4.fill (grid0.coords t) d4 (iblk m c 4 t)) _)
  isplitl [H0]; · iexact H0
  isplitl [H1]; · iexact H1
  isplitl [H2]; · iexact H2
  isplitl [H3]; · iexact H3
  isplitl [H4]; · iexact H4
  isplitl [H5]; · iexists d5; iexact H5
  iexact Hk

/-- Which windows an obligation that says nothing of the result leaves unnamed: the output's. -/
abbrev forgetOut : Fin cfg0.W → Bool := fun | 0 => false | 1 => false | 2 => false | 3 => false | 4 => false | 5 => true | ⟨_ + 6, h⟩ => absurd h (Nat.not_lt.2 (Nat.le_add_left _ _))

/-- The body obligation that says nothing of the output's buffer: the inputs' buffers are handed back as found —
    a tile's on the part its fetch fills — and the output's at whatever the body left. -/
theorem body_obligation_forget (c : Dev nD) :
    BodyObligationLoose (dats (F := F) m out 0 c) (defs₀ (F := F)) Variants.none () Set.univ forgetOut := fun t => by
  rw [bigSep_W0, bigSep_W0]
  simp only
  rw [show (dats m out 0 c).Φ t.succ = (dats m out 0 c).Φ t.castSucc from rfl,
    show (dats m out 0 c).owesAt () t.succ = (dats m out 0 c).owesAt () t.castSucc from rfl]
  iintro ⟨HΦ, Ho, ⟨%d0, H0⟩, ⟨%d1, H1⟩, ⟨%d2, H2⟩, ⟨%d3, H3⟩, ⟨%d4, H4⟩, ⟨%d5, H5⟩⟩
  rw [before_0 m out c t d0, before_1 m out c t d1, before_2 m out c t d2, before_3 m out c t d3, before_4 m out c t d4]
  iapply (sound_point (F := F) m c t d2 d3 d4 d5 _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [Ho]; · iexact Ho
  rw [after_0, after_1, after_2, after_3, after_4]
  isplitl [H0]; · iexact H0
  isplitl [H1]; · iexact H1
  isplitl [H2]
  · iexists d2
    rw [show win0_2.cut (grid0.coords t) (tile2 m c t) = iblk m c 2 t from win0_2.cut_fill _ _ _]; iexact H2
  isplitl [H3]
  · iexists d3
    rw [show win0_3.cut (grid0.coords t) (tile3 m c t) = iblk m c 3 t from win0_3.cut_fill _ _ _]; iexact H3
  isplitl [H4]
  · iexists d4
    rw [show win0_4.cut (grid0.coords t) (tile4 m c t) = iblk m c 4 t from win0_4.cut_fill _ _ _]; iexact H4
  · iexists _; iexact H5

/-- The body obligation that names the output's buffer on the part written back: for any `out` that agrees
    there with the body's value, whatever fills the tiles' buffers past their cuts. -/
theorem body_obligation_exact (c : Dev nD)
    (hout : ∀ (t : Fin cfg0.N) (d2 d3 : S1024x512.Idx → Elt F .f32) (d4 : S1x1024.Idx → Elt F .f32),
      win0_5.cut (grid0.coords t) (bodyOut (iblk m c 0 t) (iblk m c 1 t) (win0_2.fill (grid0.coords t) d2 (iblk m c 2 t))
        (win0_3.fill (grid0.coords t) d3 (iblk m c 3 t)) (win0_4.fill (grid0.coords t) d4 (iblk m c 4 t)))
      = win0_5.cut (grid0.coords t) (out t)) :
    BodyObligationLoose (dats (F := F) m out 0 c) (defs₀ (F := F)) Variants.none () Set.univ := fun t => by
  rw [bigSep_W0, bigSep_W0]
  simp only
  rw [show (dats m out 0 c).Φ t.succ = (dats m out 0 c).Φ t.castSucc from rfl,
    show (dats m out 0 c).owesAt () t.succ = (dats m out 0 c).owesAt () t.castSucc from rfl]
  iintro ⟨HΦ, Ho, ⟨%d0, H0⟩, ⟨%d1, H1⟩, ⟨%d2, H2⟩, ⟨%d3, H3⟩, ⟨%d4, H4⟩, ⟨%d5, H5⟩⟩
  rw [before_0 m out c t d0, before_1 m out c t d1, before_2 m out c t d2, before_3 m out c t d3, before_4 m out c t d4,
    before_5 m out c t d5]
  iapply (sound_point (F := F) m c t d2 d3 d4 d5 _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [Ho]; · iexact Ho
  rw [after_0, after_1, after_2, after_3, after_4, after_5]
  isplitl [H0]; · iexact H0
  isplitl [H1]; · iexact H1
  isplitl [H2]
  · iexists d2
    rw [show win0_2.cut (grid0.coords t) (tile2 m c t) = iblk m c 2 t from win0_2.cut_fill _ _ _]; iexact H2
  isplitl [H3]
  · iexists d3
    rw [show win0_3.cut (grid0.coords t) (tile3 m c t) = iblk m c 3 t from win0_3.cut_fill _ _ _]; iexact H3
  isplitl [H4]
  · iexists d4
    rw [show win0_4.cut (grid0.coords t) (tile4 m c t) = iblk m c 4 t from win0_4.cut_fill _ _ _]; iexact H4
  · iexists _
    rw [win0_5.fill_congr_cut (grid0.coords t) (hout t d2 d3 d4)]; iexact H5

end Cert.KernelIdeal.Body

end
-- ==== Proof.IdealRun.lean ====
/-
  The runs of the whole program from the body obligations.

  `run_exact`: every weakly fair execution terminates without a fault, every array of the pallas_call ends at
  what the proof data computes (an input as the region found it; the result its entry contents overwritten,
  point by point, by the moved part of what the body left) and every other buffer as the region found it.

  `frame_forget`: the same run read without naming what the body leaves in the output's buffer — enough to
  say that the seven argument arrays end as they were launched: two are windows' arrays only through the
  host's values (no window stages them), the tables and the mask are input windows' arrays, never written.
-/
import proofs.«119518_j72576357368236_2_alg».proof.Proof.IdealBodyData

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

variable (m : (ℓ : Loc nD τ sig) → Buf (Elt F) ℓ) (ρ : Dev nD → PrngReg)
variable (out : (c : Dev nD) → Fin cfg0.N → S1024x1024.Idx → Elt F .f32)

set_option backward.isDefEq.respectTransparency.types false in
/-- The run that names the result: for any `out` agreeing with the body's value on the part written back. -/
theorem run_exact
    (hout : ∀ (c : Dev nD) (t : Fin cfg0.N) (d2 d3 : S1024x512.Idx → Elt F .f32) (d4 : S1x1024.Idx → Elt F .f32),
      win0_5.cut (grid0.coords t) (bodyOut (iblk m c 0 t) (iblk m c 1 t) (win0_2.fill (grid0.coords t) d2 (iblk m c 2 t))
        (win0_3.fill (grid0.coords t) d3 (iblk m c 3 t)) (win0_4.fill (grid0.coords t) d4 (iblk m c 4 t)))
      = win0_5.cut (grid0.coords t) (out c t)) :
    θ_run defs (onTc (τ := τ) (main (F := F))) (s₀ m ρ)
      (Pipeline.FramePost cfgs (fun p c => dats m (out c) p c) 0 (V m)) :=
  Pipeline.θ_run_frame cfgs (fun p c => dats m (out c) p c) (0 : Fin 1) launch0 defs₀ Variants.none m ρ main
    (hbody := fun c => body_obligation_exact m (out c) c (hout c))
    (hshare := fun c => (dats m (out c) 0 c).share_full fun _ => rfl)
    (howed := fun _ _ => rfl) (V := V m) (hmain := hmain m Variants.none) (hA := fun c w => A_eq m (out c) c w)
    (hΦ := fun _ _ => rfl)

/-- The output's buffer left unnamed: the filler of the proof data's sixth field, which nothing reads. -/
abbrev anyOut : Fin cfg0.N → S1024x1024.Idx → Elt F .f32 := fun _ _ => Scalar.ofBits .f32 0#32

set_option backward.isDefEq.respectTransparency.types false in
/-- The run that says nothing of what the body leaves in the output's buffer. -/
theorem run_forget :
    θ_run defs (onTc (τ := τ) (main (F := F))) (s₀ m ρ)
      (Pipeline.RDat.FramePost cfg0 (fun c => (dats m anyOut 0 c).toRForget forgetOut) (V m)) :=
  Pipeline.RDat.θ_run_frame cfgs (0 : Fin 1) launch0 defs₀ Variants.none (fun c => (dats m anyOut 0 c).toRForget forgetOut) m ρ main
    (hbody := fun c => (body_obligation_forget m anyOut c).toRForget)
    (hshare := fun c w => (dats m anyOut 0 c).share_full (fun _ => rfl) w)
    (howed := fun _ _ => rfl) (V := V m) (hmain := hmain m Variants.none) (hA := fun c w => A_eq m anyOut c w)
    (hΦ := fun _ _ => rfl)

/-- An input window's array after that run is the array as the region found it: it is never written back. -/
theorem input_kept {r : PUnit × MemSt nD τ sig (Elt F)}
    (h : Pipeline.RDat.FramePost cfg0 (fun c => (dats m anyOut 0 c).toRForget forgetOut) (V m) r)
    (c : Dev nD) (w : Fin cfg0.W) (hin : (cfg0.win w).isOut = false) :
    r.2.mem ((cfg0.spec w).arr.view.loc (c.tc : Thread nD τ)) = V m c (Pipeline.arrRef spec0 w) := by
  have h1 := (h c).1 w
  rw [Pipeline.RDat.ArrAt_in _ w hin] at h1
  exact h1.trans (A_eq m anyOut c w)

/-- THE FRAME: every weakly fair execution terminates without a fault and the seven argument arrays end as
    launched. -/
theorem frame_forget :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (input_kept m h c 2 rfl).trans (V_main_arg2 m c),
      (input_kept m h c 3 rfl).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      (input_kept m h c 4 rfl).trans (V_main_arg6 m c)⟩) (run_forget m ρ)

end Cert.KernelIdeal.Body

end
-- ==== Proof.IdealPayload.lean ====
/-
  The body's arithmetic at the ideal values, read at an index of the [1024, 1024] output tile.

  With left operands `x0`, `x1` [1024, 512], table tiles `x2`, `x3` [1024, 512] and the mask tile `x4`
  [1, 1024], entry (p, q) of the body's value is

      (∑ k < 512, x0 (p, k) · x2 (q, k)) + (∑ k < 512, x1 (p, k) · x3 (q, k)) + x4 (0, q):

  each matrix product contracts the shared axis of length 512 into a zero accumulator (a plain sum at the
  ideal values), the change of format before it is the identity, and the mask row is broadcast down the
  rows.  In particular entry (p, q) reads ROW q of each table tile and COLUMN q of the mask tile only.
-/
import proofs.«119518_j72576357368236_2_alg».proof.Proof.Gen.KernelIdeal.Skeleton
import Idealize.ShloMosaic.PureOps.Ideal.Laws
import Idealize.ShloMosaic.Lib.ValueIdx
import Idealize.ShloMosaic.Lib.Pipeline.Value

noncomputable section

open scoped BigOperators

namespace Cert.KernelIdeal.Payload

open Cert.KernelIdeal Cert.KernelIdeal.Gen
open Idealize.ShloMosaic Idealize.ShloMosaic.ValueIdx

/-- The product's left operand index at output (p, q) and contraction index k is (p, k). -/
theorem lhs_row (i : S1024x1024.Idx) (k : dot_S1024x512_S1024x512_S1024x1024_1_1_0_0_n_n.contr.Idx) :
    (dot_S1024x512_S1024x512_S1024x1024_1_1_0_0_n_n.lhsIdx i k 0).val = (i 0).val := by
  unfold DotDims.lhsIdx
  rw [dif_neg (show ¬(0 : Fin S1024x512.rank) ∈ dot_S1024x512_S1024x512_S1024x1024_1_1_0_0_n_n.lhsBatch by decide),
    dif_pos (show (0 : Fin S1024x512.rank) ∈ dot_S1024x512_S1024x512_S1024x1024_1_1_0_0_n_n.lhsNonContracting by decide)]
  rfl
/-- The right operand's is (q, k): the product contracts the second axis of BOTH operands. -/
theorem rhs_row (i : S1024x1024.Idx) (k : dot_S1024x512_S1024x512_S1024x1024_1_1_0_0_n_n.contr.Idx) :
    (dot_S1024x512_S1024x512_S1024x1024_1_1_0_0_n_n.rhsIdx i k 0).val = (i 1).val := by
  unfold DotDims.rhsIdx
  rw [dif_neg (show ¬(0 : Fin S1024x512.rank) ∈ dot_S1024x512_S1024x512_S1024x1024_1_1_0_0_n_n.rhsBatch by decide),
    dif_pos (show (0 : Fin S1024x512.rank) ∈ dot_S1024x512_S1024x512_S1024x1024_1_1_0_0_n_n.rhsNonContracting by decide)]
  rfl

/-- A matrix product into the zero accumulator, at the ideal values, at entry (p, q): the sum over the shared
    axis of the left operand's row p against the right operand's row q. -/
theorem product_apply (l r : FVec Ideal S1024x512 .bf16) (p q : Fin 1024) :
    matmul dot_S1024x512_S1024x512_S1024x1024_1_1_0_0_n_n none l r (constant S1024x1024 .f32 0x00000000#32) (ix2 p q)
      = ∑ k : Fin 512, l (ix2 p k) * r (ix2 q k) := by
  simp only [matmul]
  rw [Ideal.matmul_constant_zero_apply,
    ← Equiv.sum_comp (ValueIdx.contrEquiv1 dot_S1024x512_S1024x512_S1024x1024_1_1_0_0_n_n 512 rfl rfl).symm]
  refine Finset.sum_congr rfl fun k _ => ?_
  have hk := ValueIdx.contrEquiv1_symm_val dot_S1024x512_S1024x512_S1024x1024_1_1_0_0_n_n 512 rfl rfl k
  have el : dot_S1024x512_S1024x512_S1024x1024_1_1_0_0_n_n.lhsIdx (ix2 p q)
      ((ValueIdx.contrEquiv1 dot_S1024x512_S1024x512_S1024x1024_1_1_0_0_n_n 512 rfl rfl).symm k) = ix2 p k :=
    funext fun a => Fin.ext (by
      match a with
      | ⟨0, _⟩ => exact lhs_row _ _
      | ⟨1, _⟩ => exact (dot_S1024x512_S1024x512_S1024x1024_1_1_0_0_n_n.lhsIdx_val_of_single rfl _ _).trans hk)
  have er : dot_S1024x512_S1024x512_S1024x1024_1_1_0_0_n_n.rhsIdx (ix2 p q)
      ((ValueIdx.contrEquiv1 dot_S1024x512_S1024x512_S1024x1024_1_1_0_0_n_n 512 rfl rfl).symm k) = ix2 q k :=
    funext fun a => Fin.ext (by
      match a with
      | ⟨0, _⟩ => exact rhs_row _ _
      | ⟨1, _⟩ => exact (dot_S1024x512_S1024x512_S1024x1024_1_1_0_0_n_n.rhsIdx_val_of_single rfl _ _).trans hk)
  rw [el, er]

/-- The mask tile broadcast down the rows, at (p, q): the tile's entry (0, q). -/
theorem mask_rows_apply (x4 : Vec Ideal S1x1024 .f32) (p q : Fin 1024) :
    broadcastTo S1024x1024 x4 broadcasts_S1x1024_S1024x1024 (ix2 p q) = x4 (ix2 (0 : Fin 1) q) :=
  broadcastTo_apply x4 broadcasts_S1x1024_S1024x1024 (ix2 p q) (ix2 (0 : Fin 1) q) (fun a => match a with
    | ⟨0, _⟩ => by show 0 = if (1 : Nat) = 1 then 0 else _; rw [if_pos rfl]
    | ⟨1, _⟩ => by show q.val = if (1024 : Nat) = 1 then 0 else q.val; rw [if_neg (by decide)])

/-- THE BODY'S VALUE AT AN ENTRY. -/
theorem pay_apply (x0 x1 : Vec Ideal S1024x512 .bf16) (x2 x3 : Vec Ideal S1024x512 .f32) (x4 : Vec Ideal S1x1024 .f32)
    (p q : Fin 1024) :
    k0_pay1 (F := Ideal) x0 x1 x2 x3 x4 (ix2 p q)
      = (∑ k : Fin 512, x0 (ix2 p k) * x2 (ix2 q k)) + (∑ k : Fin 512, x1 (ix2 p k) * x3 (ix2 q k))
        + x4 (ix2 (0 : Fin 1) q) := by
  unfold k0_pay1
  rw [ValueIdx.addf_apply, ValueIdx.addf_apply, product_apply, product_apply, mask_rows_apply,
    shapeCast_self, shapeCast_self]
  rfl

end Cert.KernelIdeal.Payload

end
-- ==== Proof.Scores.lean ====
/-
  The result as ONE function of the arrays it is computed from, index by index, on the extended reals.

  For left operands `a`, `b` [1024, 512], tables `eim`, `ere` [100000, 512] and a mask row [1, 100000], the
  entry (r, e) of the [1024, 100000] result is

      (∑ k < 512, a (r, k) · eim (e, k)) + (∑ k < 512, b (r, k) · ere (e, k)) + mask (0, e).

  Both programs compute exactly this sum in exactly this grouping (each product is a sum over the shared
  axis of length 512, the two products are added, then the mask row), so no law of the extended reals beyond
  reading each operation at an index is needed to join them.
-/
import Idealize.ShloMosaic.PureOps.Ideal
import Idealize.ShloMosaic.Lib.ValueIdx

noncomputable section

open scoped BigOperators

namespace Cert.Scores

open Idealize.ShloMosaic Idealize.ShloMosaic.ValueIdx

/-- The scores: entry (r, e) is row r of `a` against row e of `eim`, plus row r of `b` against row e of `ere`,
    plus the mask at e. -/
def scores (a b : (⟨2, ![1024, 512]⟩ : Shape).Idx → EReal) (eim ere : (⟨2, ![100000, 512]⟩ : Shape).Idx → EReal)
    (mask : (⟨2, ![1, 100000]⟩ : Shape).Idx → EReal) : (⟨2, ![1024, 100000]⟩ : Shape).Idx → EReal :=
  fun i => (∑ k : Fin 512, a (ix2 (i 0 : Fin 1024) k) * eim (ix2 (i 1 : Fin 100000) k))
    + (∑ k : Fin 512, b (ix2 (i 0 : Fin 1024) k) * ere (ix2 (i 1 : Fin 100000) k))
    + mask (ix2 (0 : Fin 1) (i 1 : Fin 100000))

theorem scores_apply (a b : (⟨2, ![1024, 512]⟩ : Shape).Idx → EReal) (eim ere : (⟨2, ![100000, 512]⟩ : Shape).Idx → EReal)
    (mask : (⟨2, ![1, 100000]⟩ : Shape).Idx → EReal) (r : Fin 1024) (e : Fin 100000) :
    scores a b eim ere mask (ix2 r e) = (∑ k : Fin 512, a (ix2 r k) * eim (ix2 e k))
      + (∑ k : Fin 512, b (ix2 r k) * ere (ix2 e k)) + mask (ix2 (0 : Fin 1) e) := rfl

end Cert.Scores

end
-- ==== Proof.IdealValue.lean ====
/-
  The result array after the run, at the ideal values: the scores function of the arrays the region finds.

  Point t writes back columns [1024 t, 1024 t + n_t) of the result, n_t = min 1024 (100000 - 1024 t): all
  1024 rows of them.  Entry (p, q) of the body's value, q < n_t, reads row q of each table tile and column q
  of the mask tile — rows and columns INSIDE the arrays, which the fetch filled with rows 1024 t + q of the
  tables and column 1024 t + q of the mask — and row p of the two left operands, staged whole.  So on the part
  written back the body's value is the scores function read through the block, whatever the staging buffers
  hold past the arrays' ends; the 98 blocks cover the result, so the result array ends holding the scores.
-/
import proofs.«119518_j72576357368236_2_alg».proof.Proof.IdealRun
import proofs.«119518_j72576357368236_2_alg».proof.Proof.IdealPayload
import proofs.«119518_j72576357368236_2_alg».proof.Proof.Scores
import Idealize.ShloMosaic.Lib.Pipeline.Value
import Idealize.ShloMosaic.Lib.ValueIdx

set_option maxRecDepth 16384

noncomputable section

open scoped BigOperators

namespace Cert.KernelIdeal.Result

open Cert.KernelIdeal Cert.KernelIdeal.Gen Cert.KernelIdeal.Body
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

theorem hz : (![0, 0] : Fin 2 → Nat) = fun _ => 0 := funext fun a => by fin_cases a <;> rfl

/-- The printed index maps and cuts, decided once over the 98 points: the left operands' blocks are their
    arrays; a table's block at point t starts at row 1024 t, the mask's and the result's at column 1024 t; the
    result's block keeps all its rows and n_t = min 1024 (100000 - 1024 t) of its columns, and the tables'
    (mask's) blocks are cut to the same n_t rows (columns). -/
theorem grid_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = t.val
    ∧ win0_5.index t (0 : Fin 2) = 0 ∧ win0_5.index t (1 : Fin 2) = t.val
    ∧ win0_5.xsize (grid0.coords t) (0 : Fin 2) = 1024
    ∧ win0_5.xsize (grid0.coords t) (1 : Fin 2) = min 1024 (100000 - t.val * 1024)
    ∧ win0_2.xsize (grid0.coords t) (0 : Fin 2) = min 1024 (100000 - t.val * 1024)
    ∧ win0_2.xsize (grid0.coords t) (1 : Fin 2) = 512
    ∧ win0_3.xsize (grid0.coords t) (0 : Fin 2) = min 1024 (100000 - t.val * 1024)
    ∧ win0_3.xsize (grid0.coords t) (1 : Fin 2) = 512
    ∧ win0_4.xsize (grid0.coords t) (0 : Fin 2) = 1
    ∧ win0_4.xsize (grid0.coords t) (1 : Fin 2) = min 1024 (100000 - t.val * 1024) :=
  (by decide +kernel : ∀ t : Fin grid0.N, _)

/-- The result as the region's arrays determine it: the scores of the two staged left operands, the two
    tables and the mask. -/
def G (c : Dev nD) : S1024x100000.Idx → Elt Ideal .f32 :=
  Cert.Scores.scores (V m c main_v47) (V m c main_v48) (V m c main_arg2) (V m c main_arg3) (V m c main_arg6)

/-- What the output's staging buffer is said to hold after the body at point t: block t of `G` on the part
    written back, filled out past the cut with zero. -/
def out (c : Dev nD) (t : Fin cfg0.N) : S1024x1024.Idx → Elt Ideal .f32 :=
  win0_5.fill (grid0.coords t) (fun _ => (0 : EReal)) ((win0_5.blk t).view.read (Elt Ideal) (G m c))

/-- The body's value at entry (p, q) of the tile is the scores at (p, e) once its five operands are known where
    that entry reads them: rows p of the left operands, rows q of the table tiles (rows e of the tables), the
    mask tile at q (the mask at e). -/
theorem entry_eq (X0 X1 : Vec Ideal S1024x512 .bf16) (X2 X3 : Vec Ideal S1024x512 .f32) (X4 : Vec Ideal S1x1024 .f32)
    (a b : S1024x512.Idx → EReal) (eim ere : S100000x512.Idx → EReal) (mask : S1x100000.Idx → EReal)
    (p q : Fin 1024) (e : Fin 100000)
    (h0 : ∀ k : Fin 512, X0 (ix2 p k) = a (ix2 p k)) (h1 : ∀ k : Fin 512, X1 (ix2 p k) = b (ix2 p k))
    (h2 : ∀ k : Fin 512, X2 (ix2 q k) = eim (ix2 e k)) (h3 : ∀ k : Fin 512, X3 (ix2 q k) = ere (ix2 e k))
    (h4 : X4 (ix2 (0 : Fin 1) q) = mask (ix2 (0 : Fin 1) e)) :
    k0_pay1 (F := Ideal) X0 X1 X2 X3 X4 (ix2 p q) = Cert.Scores.scores a b eim ere mask (ix2 p e) := by
  rw [Cert.KernelIdeal.Payload.pay_apply, Cert.Scores.scores_apply]
  simp only [h0, h1, h2, h3, h4]

set_option maxHeartbeats 8000000 in
/-- ON THE PART WRITTEN BACK the body's value is block t of `G`, whatever fills the tiles' buffers past their
    cuts. -/
theorem body_agrees (c : Dev nD) (t : Fin cfg0.N) (d2 d3 : S1024x512.Idx → Elt Ideal .f32) (d4 : S1x1024.Idx → Elt Ideal .f32) :
    win0_5.cut (grid0.coords t) (bodyOut (iblk m c 0 t) (iblk m c 1 t) (win0_2.fill (grid0.coords t) d2 (iblk m c 2 t))
        (win0_3.fill (grid0.coords t) d3 (iblk m c 3 t)) (win0_4.fill (grid0.coords t) d4 (iblk m c 4 t)))
      = win0_5.cut (grid0.coords t) (out m c t) := by
  unfold out
  rw [win0_5.cut_fill]
  unfold bodyOut
  rw [View.canon_unit_zero hz]
  simp only [View.ld_unit_zero (S := S1024x512) hz, View.ld_unit_zero (S := S1x1024) hz]
  obtain ⟨f00, f01, f10, f11, f20, f21, f30, f31, f40, f41, f50, f51, x50, x51, x20, x21, x30, x31, x40, x41⟩ := grid_facts t
  have ht : t.val < 98 := lt_of_lt_of_eq t.isLt N_0
  funext j
  have hj0 : (j 0).val < 1024 := lt_of_lt_of_le (j 0).isLt (win0_5.xsize_le (grid0.coords t) 0)
  have hj1 : (j 1).val < win0_5.xsize (grid0.coords t) (1 : Fin 2) := (j 1).isLt
  have hj1' : (j 1).val < 1024 := lt_of_lt_of_le (j 1).isLt (win0_5.xsize_le (grid0.coords t) 1)
  have hje : t.val * 1024 + (j 1).val < 100000 := by rw [x51] at hj1; omega
  show k0_pay1 (F := Ideal) _ _ _ _ _ (win0_5.xinj (grid0.coords t) j) = G m c ((win0_5.blk t).view.emb j)
  have hx : win0_5.xinj (grid0.coords t) j = ix2 (⟨(j 0).val, hj0⟩ : Fin 1024) (⟨(j 1).val, hj1'⟩ : Fin 1024) :=
    funext fun a => Fin.ext (by match a with | ⟨0, _⟩ => rfl | ⟨1, _⟩ => rfl)
  have he : (win0_5.blk t).view.emb j
      = ix2 (⟨(j 0).val, hj0⟩ : Fin 1024) (⟨t.val * 1024 + (j 1).val, hje⟩ : Fin 100000) :=
    funext fun a => Fin.ext (by
      match a with
      | ⟨0, _⟩ => show win0_5.index t (0 : Fin 2) * 1024 + 1 * (j 0).val = (j 0).val; omega
      | ⟨1, _⟩ => show win0_5.index t (1 : Fin 2) * 1024 + 1 * (j 1).val = t.val * 1024 + (j 1).val; omega)
  rw [hx, he]
  unfold G
  refine entry_eq (iblk m c 0 t) (iblk m c 1 t) (win0_2.fill (grid0.coords t) d2 (iblk m c 2 t))
    (win0_3.fill (grid0.coords t) d3 (iblk m c 3 t)) (win0_4.fill (grid0.coords t) d4 (iblk m c 4 t))
    (V m c main_v47) (V m c main_v48) (V m c main_arg2) (V m c main_arg3) (V m c main_arg6)
    (⟨(j 0).val, hj0⟩ : Fin 1024) (⟨(j 1).val, hj1'⟩ : Fin 1024) (⟨t.val * 1024 + (j 1).val, hje⟩ : Fin 100000) ?_ ?_ ?_ ?_ ?_
  · intro k
    show V m c main_v47 ((win0_0.blk t).view.emb (ix2 (⟨(j 0).val, hj0⟩ : Fin 1024) k)) = V m c main_v47 (ix2 (⟨(j 0).val, hj0⟩ : Fin 1024) k)
    refine congrArg _ (funext fun a => Fin.ext ?_)
    match a with
    | ⟨0, _⟩ => show win0_0.index t (0 : Fin 2) * 1024 + 1 * (j 0).val = (j 0).val; omega
    | ⟨1, _⟩ => show win0_0.index t (1 : Fin 2) * 512 + 1 * k.val = k.val; omega
  · intro k
    show V m c main_v48 ((win0_1.blk t).view.emb (ix2 (⟨(j 0).val, hj0⟩ : Fin 1024) k)) = V m c main_v48 (ix2 (⟨(j 0).val, hj0⟩ : Fin 1024) k)
    refine congrArg _ (funext fun a => Fin.ext ?_)
    match a with
    | ⟨0, _⟩ => show win0_1.index t (0 : Fin 2) * 1024 + 1 * (j 0).val = (j 0).val; omega
    | ⟨1, _⟩ => show win0_1.index t (1 : Fin 2) * 512 + 1 * k.val = k.val; omega
  · intro k
    have hm : win0_2.moved (grid0.coords t) (ix2 (⟨(j 1).val, hj1'⟩ : Fin 1024) k) = true :=
      (win0_2.moved_iff _ _).mpr fun a => by
        match a with
        | ⟨0, _⟩ => show (j 1).val < win0_2.xsize (grid0.coords t) (0 : Fin 2); rw [x20, ← x51]; exact hj1
        | ⟨1, _⟩ => show k.val < win0_2.xsize (grid0.coords t) (1 : Fin 2); rw [x21]; exact k.isLt
    unfold Window.fill
    rw [dif_pos hm]
    show V m c main_arg2 ((win0_2.blk t).view.emb _) = V m c main_arg2 (ix2 (⟨t.val * 1024 + (j 1).val, hje⟩ : Fin 100000) k)
    refine congrArg _ (funext fun a => Fin.ext ?_)
    match a with
    | ⟨0, _⟩ => show win0_2.index t (0 : Fin 2) * 1024 + 1 * (j 1).val = t.val * 1024 + (j 1).val; omega
    | ⟨1, _⟩ => show win0_2.index t (1 : Fin 2) * 512 + 1 * k.val = k.val; omega
  · intro k
    have hm : win0_3.moved (grid0.coords t) (ix2 (⟨(j 1).val, hj1'⟩ : Fin 1024) k) = true :=
      (win0_3.moved_iff _ _).mpr fun a => by
        match a with
        | ⟨0, _⟩ => show (j 1).val < win0_3.xsize (grid0.coords t) (0 : Fin 2); rw [x30, ← x51]; exact hj1
        | ⟨1, _⟩ => show k.val < win0_3.xsize (grid0.coords t) (1 : Fin 2); rw [x31]; exact k.isLt
    unfold Window.fill
    rw [dif_pos hm]
    show V m c main_arg3 ((win0_3.blk t).view.emb _) = V m c main_arg3 (ix2 (⟨t.val * 1024 + (j 1).val, hje⟩ : Fin 100000) k)
    refine congrArg _ (funext fun a => Fin.ext ?_)
    match a with
    | ⟨0, _⟩ => show win0_3.index t (0 : Fin 2) * 1024 + 1 * (j 1).val = t.val * 1024 + (j 1).val; omega
    | ⟨1, _⟩ => show win0_3.index t (1 : Fin 2) * 512 + 1 * k.val = k.val; omega
  · have hm : win0_4.moved (grid0.coords t) (ix2 (0 : Fin 1) (⟨(j 1).val, hj1'⟩ : Fin 1024)) = true :=
      (win0_4.moved_iff _ _).mpr fun a => by
        match a with
        | ⟨0, _⟩ => show 0 < win0_4.xsize (grid0.coords t) (0 : Fin 2); rw [x40]; exact Nat.one_pos
        | ⟨1, _⟩ => show (j 1).val < win0_4.xsize (grid0.coords t) (1 : Fin 2); rw [x41, ← x51]; exact hj1
    unfold Window.fill
    rw [dif_pos hm]
    show V m c main_arg6 ((win0_4.blk t).view.emb _) = V m c main_arg6 (ix2 (0 : Fin 1) (⟨t.val * 1024 + (j 1).val, hje⟩ : Fin 100000))
    refine congrArg _ (funext fun a => Fin.ext ?_)
    match a with
    | ⟨0, _⟩ => show win0_4.index t (0 : Fin 2) * 1 + 1 * 0 = 0; omega
    | ⟨1, _⟩ => show win0_4.index t (1 : Fin 2) * 1024 + 1 * (j 1).val = t.val * 1024 + (j 1).val; omega

/-- What point t writes back is block t of `G`. -/
theorem flushed_eq (c : Dev nD) (t : Fin cfg0.N) :
    (dats m (out m c) 0 c).flushed 5 t = ((cfg0.win 5).blk t).view.read (Elt Ideal) (G m c) := by
  show (cfg0.win 5).cut (grid0.coords t) ((dats m (out m c) 0 c).after 5 t) = _
  rw [after_5]
  unfold out
  exact win0_5.cut_fill _ _ _

/-- An index of the result is in point t's block iff each coordinate is within the block's part inside the array. -/
theorem mem_blk (t : Fin cfg0.N) (i : S1024x100000.Idx) :
    i ∈ ((cfg0.win 5).blk t).view.set ↔ ∀ a : Fin 2, win0_5.index t a * S1024x1024.size a ≤ (i a).val
      ∧ (i a).val < win0_5.index t a * S1024x1024.size a + win0_5.xsize (grid0.coords t) a := by
  show i ∈ ((View.whole main_v49).slice (win0_5.rect t)).set ↔ _
  rw [View.set_slice_whole, Rect.mem_set_unit]
  exact Iff.rfl

/-- Every entry (r, e) of the result is in the block of point e / 1024. -/
theorem cover (i : S1024x100000.Idx) :
    ∃ t : Fin cfg0.N, (cfg0.win 5).flush t = true ∧ i ∈ ((cfg0.win 5).blk t).view.set := by
  have hi0 : (i 0).val < 1024 := (i 0).isLt
  have hi1 : (i 1).val < 100000 := (i 1).isLt
  have hN : (i 1).val / 1024 < cfg0.N := by rw [show cfg0.N = 98 from N_0]; omega
  refine ⟨⟨(i 1).val / 1024, hN⟩, flush0_5 _, ?_⟩
  rw [mem_blk]
  obtain ⟨f00, f01, f10, f11, f20, f21, f30, f31, f40, f41, f50, f51, x50, x51, x20, x21, x30, x31, x40, x41⟩ :=
    grid_facts ⟨(i 1).val / 1024, hN⟩
  intro a
  match a with
  | ⟨0, _⟩ =>
    show win0_5.index ⟨(i 1).val / 1024, hN⟩ (0 : Fin 2) * 1024 ≤ (i 0).val
      ∧ (i 0).val < win0_5.index ⟨(i 1).val / 1024, hN⟩ (0 : Fin 2) * 1024 + win0_5.xsize (grid0.coords ⟨(i 1).val / 1024, hN⟩) (0 : Fin 2)
    rw [f50, x50]; omega
  | ⟨1, _⟩ =>
    show win0_5.index ⟨(i 1).val / 1024, hN⟩ (1 : Fin 2) * 1024 ≤ (i 1).val
      ∧ (i 1).val < win0_5.index ⟨(i 1).val / 1024, hN⟩ (1 : Fin 2) * 1024 + win0_5.xsize (grid0.coords ⟨(i 1).val / 1024, hN⟩) (1 : Fin 2)
    rw [f51, x51]
    show (i 1).val / 1024 * 1024 ≤ (i 1).val ∧ (i 1).val < (i 1).val / 1024 * 1024 + min 1024 (100000 - (i 1).val / 1024 * 1024)
    omega

/-- THE RESULT ARRAY after the run is `G`. -/
theorem final (c : Dev nD) : (dats m (out m c) 0 c).arrAt 5 cfg0.N = G m c :=
  (dats m (out m c) 0 c).arrAt_eq_of_cover 5 (G m c) (fun t _ => flushed_eq m c t) (cover)

/-- THE RUN at the ideal values: every weakly fair execution terminates without a fault, the result array ends
    holding `G`, and the seven argument arrays end as launched. -/
theorem run :
    θ_run defs (onTc (τ := τ) (main (F := Ideal))) ⟨m, fun _ => 0, ρ⟩ (fun r => ∀ c : Dev nD,
      r.2.mem ((c.tc : Thread nD τ).loc main_v49) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).1 5).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 2).trans (((dats m (out m c) 0 c).arrAt_in 2 rfl _).trans ((A_eq m (out m c) c 2).trans (V_main_arg2 m c))),
      ((h c).1 3).trans (((dats m (out m c) 0 c).arrAt_in 3 rfl _).trans ((A_eq m (out m c) c 3).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).1 4).trans (((dats m (out m c) 0 c).arrAt_in 4 rfl _).trans ((A_eq m (out m c) c 4).trans (V_main_arg6 m c)))⟩)
    (run_exact m ρ (out m) (body_agrees m))

end Cert.KernelIdeal.Result

end
-- ==== Proof.IdealPrefixIm.lean ====
/-
  The first left operand the pallas_call stages, as the reference's own term of the argument arrays.

  Before the call the host combines four gathered [1024, 512] arrays (rows of the two entity tables chosen
  by the first index vector, rows of the two relation tables chosen by the second after folding the inverse
  relations back) into two [1024, 512] arrays, and converts both to bf16.  The reference performs the same
  operations, in the same order, on the same arguments, and does not convert.  At the ideal values the
  conversion is the identity, so the array the region finds in this staged operand is the reference's
  combined operand, as a function of the argument arrays.
-/
import proofs.«119518_j72576357368236_2_alg».proof.Proof.Gen.KernelIdeal.Frame
import proofs.«119518_j72576357368236_2_alg».proof.Proof.Gen.ReferenceIdeal.Read
import Idealize.ShloMosaic.Lib.StableHlo.Run

set_option maxRecDepth 16384

noncomputable section

namespace Cert.KernelIdeal.Prefix

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

set_option maxHeartbeats 4000000 in
theorem operand_im (c : Dev nD) :
    (V m c main_v47 : S1024x512.Idx → Elt Ideal .bf16)
      = Cert.ReferenceIdeal.Read.val_main_v39 (F := Ideal) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold V
  simp only [hostOps0, hostOps0_1, hostOps0_2, hostOps0_3, hostOps0_4, hostOps0_5, hostOps0_6, List.flatten_cons,
    List.flatten_nil, List.append_nil, List.cons_append, List.nil_append]
  after_results_simp
  show truncf (F := Ideal) .bf16 (_ : FVec Ideal S1024x512 .f32) bitsLt_bf16_f32
    = truncf (F := Ideal) .bf16 ((Cert.ReferenceIdeal.Read.val_main_v39 (F := Ideal) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))) : FVec Ideal S1024x512 .f32) bitsLt_bf16_f32
  refine congrArg (fun x : FVec Ideal S1024x512 .f32 => truncf (F := Ideal) .bf16 x bitsLt_bf16_f32) ?_
  rfl

end Cert.KernelIdeal.Prefix

end
-- ==== Proof.IdealPrefixRe.lean ====
/-
  The second left operand the pallas_call stages, as the reference's own term of the argument arrays.

  Before the call the host combines four gathered [1024, 512] arrays (rows of the two entity tables chosen
  by the first index vector, rows of the two relation tables chosen by the second after folding the inverse
  relations back) into two [1024, 512] arrays, and converts both to bf16.  The reference performs the same
  operations, in the same order, on the same arguments, and does not convert.  At the ideal values the
  conversion is the identity, so the array the region finds in this staged operand is the reference's
  combined operand, as a function of the argument arrays.
-/
import proofs.«119518_j72576357368236_2_alg».proof.Proof.Gen.KernelIdeal.Frame
import proofs.«119518_j72576357368236_2_alg».proof.Proof.Gen.ReferenceIdeal.Read
import Idealize.ShloMosaic.Lib.StableHlo.Run

set_option maxRecDepth 16384

noncomputable section

namespace Cert.KernelIdeal.Prefix

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

set_option maxHeartbeats 4000000 in
theorem operand_re (c : Dev nD) :
    (V m c main_v48 : S1024x512.Idx → Elt Ideal .bf16)
      = Cert.ReferenceIdeal.Read.val_main_v46 (F := Ideal) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold V
  simp only [hostOps0, hostOps0_1, hostOps0_2, hostOps0_3, hostOps0_4, hostOps0_5, hostOps0_6, List.flatten_cons,
    List.flatten_nil, List.append_nil, List.cons_append, List.nil_append]
  after_results_simp
  show truncf (F := Ideal) .bf16 (_ : FVec Ideal S1024x512 .f32) bitsLt_bf16_f32
    = truncf (F := Ideal) .bf16 ((Cert.ReferenceIdeal.Read.val_main_v46 (F := Ideal) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))) : FVec Ideal S1024x512 .f32) bitsLt_bf16_f32
  refine congrArg (fun x : FVec Ideal S1024x512 .f32 => truncf (F := Ideal) .bf16 x bitsLt_bf16_f32) ?_
  rfl

end Cert.KernelIdeal.Prefix

end
-- ==== Proof.RefScores.lean ====
/-
  The reference's result is the scores function of ITS two combined left operands and the argument arrays.

  The reference ends with: the two tables transposed, each combined operand multiplied against a transposed
  table (a contraction of the operand's second axis with the transposed table's first), the two products
  added, the mask row broadcast down the rows and added.  Read at an entry (r, e): the transposed table at
  (k, e) is the table at (e, k), so each product is the sum over k of the operand's (r, k) against the
  table's (e, k); the broadcast mask is the mask at (0, e).
-/
import proofs.«119518_j72576357368236_2_alg».proof.Proof.Gen.ReferenceIdeal.Read
import proofs.«119518_j72576357368236_2_alg».proof.Proof.Scores

noncomputable section

open scoped BigOperators

namespace Cert.ReferenceIdeal.RefValue

open Cert.ReferenceIdeal Cert.ReferenceIdeal.Gen Cert.ReferenceIdeal.Read
open Idealize.ShloMosaic Idealize.ShloMosaic.ValueIdx

theorem result_is_scores (x0 x1 : (⟨S1024, .i32⟩ : BufTy).Contents (Elt Ideal))
    (x2 x3 : (⟨S100000x512, .f32⟩ : BufTy).Contents (Elt Ideal)) (x4 x5 : (⟨S1000x512, .f32⟩ : BufTy).Contents (Elt Ideal))
    (x6 : (⟨S1x100000, .f32⟩ : BufTy).Contents (Elt Ideal)) :
    val_main_v53 (F := Ideal) x0 x1 x2 x3 x4 x5 x6
      = Cert.Scores.scores (val_main_v39 (F := Ideal) x0 x1 x2 x3 x4 x5) (val_main_v46 (F := Ideal) x0 x1 x2 x3 x4 x5) x2 x3 x6 := by
  funext i
  obtain ⟨r, e, rfl⟩ : ∃ (r : Fin 1024) (e : Fin 100000), i = ix2 r e := ⟨i 0, i 1, eq_ix2 i⟩
  have el1 : ∀ k : Fin 512, lidx_main_v48 (ix2 r e) k = ix2 r k := fun k =>
    funext fun a => Fin.ext (by match a with | ⟨0, _⟩ => rfl | ⟨1, _⟩ => rfl)
  have er1 : ∀ k : Fin 512, idx_main_v47 (ridx_main_v48 (ix2 r e) k) = ix2 e k := fun k =>
    funext fun a => Fin.ext (by match a with | ⟨0, _⟩ => rfl | ⟨1, _⟩ => rfl)
  have el2 : ∀ k : Fin 512, lidx_main_v50 (ix2 r e) k = ix2 r k := fun k =>
    funext fun a => Fin.ext (by match a with | ⟨0, _⟩ => rfl | ⟨1, _⟩ => rfl)
  have er2 : ∀ k : Fin 512, idx_main_v49 (ridx_main_v50 (ix2 r e) k) = ix2 e k := fun k =>
    funext fun a => Fin.ext (by match a with | ⟨0, _⟩ => rfl | ⟨1, _⟩ => rfl)
  have em : idx_main_v52 (ix2 r e) = ix2 (0 : Fin 1) e :=
    funext fun a => Fin.ext (by match a with | ⟨0, _⟩ => rfl | ⟨1, _⟩ => rfl)
  rw [val_main_v53_apply, val_main_v51_apply, val_main_v48_apply, val_main_v50_apply, val_main_v52_apply,
    Cert.Scores.scores_apply]
  simp only [val_main_v47_apply, val_main_v49_apply, el1, er1, el2, er2, em]
  rfl

end Cert.ReferenceIdeal.RefValue

end
-- ==== Proof.lean ====
/-
  The kernel scores every entity against a batch of 1024 (head, relation) pairs of a complex bilinear model:
  the host gathers the pairs' rows of the entity tables E_im, E_re and relation tables R_im, R_re, combines them
  into two [1024, 512] operands, and one pallas_call over 98 tiles of 1024 entities computes

      result (r, e) = (∑ k < 512, op₁ (r, k) · E_im (e, k)) + (∑ k < 512, op₂ (r, k) · E_re (e, k)) + mask (0, e)

  for all 100000 entities; the last tile is ragged (672 entities) and its transfers are cut at the arrays' end.
  The reference computes the same two operands by the same host operations and the same sum with two whole
  matrix products against the transposed tables.

  Frames.  Each kernel program terminates without a fault and leaves its seven arguments as launched: the body's
  run on symbolic staging buffers, the buffers' contents before the body stated only on the part the cut
  transfers fill, the output's buffer left unnamed (at the word level the matrix unit's term is a function of
  the whole right-hand tile, so what it makes of the words past the cut is not a function of the arguments).
  The reference's frame is its run with the result dropped.

  Idealization.  The ideal pass rewrote nothing: the ledger is empty.

  Equality at the ideal values.  There a matrix product is a plain sum and a change of float format the identity,
  so entry (p, q) of the body's value reads row q of each table tile and column q of the mask tile only — inside
  the arrays for every column written back.  The result array is therefore the scores function of the two staged
  operands, the tables and the mask; the staged operands are the reference's combined operands; and the
  reference's result, read at an index, is the same scores function.  No law of the extended reals is used
  beyond reading each operation at an index, and the precondition is never opened.
-/
import proofs.«119518_j72576357368236_2_alg».proof.Defs
import proofs.«119518_j72576357368236_2_alg».proof.Proof.Gen.Kernel
import proofs.«119518_j72576357368236_2_alg».proof.Proof.Gen.KernelIdeal
import proofs.«119518_j72576357368236_2_alg».proof.Proof.Gen.ReferenceIdeal
import proofs.«119518_j72576357368236_2_alg».proof.Proof.Gen.ReferenceIdeal.Run
import proofs.«119518_j72576357368236_2_alg».proof.Proof.Gen.ReferenceIdeal.Read
import proofs.«119518_j72576357368236_2_alg».proof.Proof.Gen.Pre_finite_inputs
import proofs.«119518_j72576357368236_2_alg».proof.Proof.BitsRun
import proofs.«119518_j72576357368236_2_alg».proof.Proof.IdealValue
import proofs.«119518_j72576357368236_2_alg».proof.Proof.IdealPrefixIm
import proofs.«119518_j72576357368236_2_alg».proof.Proof.IdealPrefixRe
import proofs.«119518_j72576357368236_2_alg».proof.Proof.RefScores
import Idealize.ShloMosaic.Adequacy
import Idealize.ShloMosaic.Init

noncomputable section

namespace Cert.Proof

open Idealize.ShloMosaic Idealize.SL.Sem

namespace Claims

/-- The kernel as printed: it runs to the end, nothing faults, its arguments end unchanged. -/
theorem frame_kernel : Cert.frame_Kernel := fun m ρ _ => Cert.Kernel.Body.frame_forget (F := Bits) m ρ

/-- The same program read at the ideal values. -/
theorem frame_kernel_ideal : Cert.frame_KernelIdeal := fun m ρ _ => Cert.KernelIdeal.Body.frame_forget (F := Ideal) m ρ

/-- The reference: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten. -/
theorem preserves : Cert.preserves_Kernel_KernelIdeal := trivial

/-- From memories agreeing on the arguments both programs end with the scores of the reference's two combined
    operands, the two tables and the mask. -/
theorem algebraic : Cert.algebraic_KernelIdeal_ReferenceIdeal := by
  intro m ρ m' ρ' _ hagree
  refine ⟨fun c => Cert.KernelIdeal.Result.G m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v53_eq, a0, a1, a2, a3, a4, a5, a6,
    Cert.ReferenceIdeal.RefValue.result_is_scores]
  unfold Cert.KernelIdeal.Result.G
  beta_reduce
  rw [Cert.KernelIdeal.Prefix.operand_im, Cert.KernelIdeal.Prefix.operand_re, Cert.KernelIdeal.Gen.V_main_arg2,
    Cert.KernelIdeal.Gen.V_main_arg3, Cert.KernelIdeal.Gen.V_main_arg6]

end Claims

theorem claim : Cert.Claim :=
  ⟨Cert.Kernel.Gen.facts, Cert.KernelIdeal.Gen.facts, Cert.ReferenceIdeal.Gen.facts, Cert.Pre_finite_inputs.Gen.facts,
    Claims.frame_kernel, Claims.frame_kernel_ideal, Claims.frame_reference, Claims.preserves, Claims.algebraic⟩

end Cert.Proof

end
